-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "neg_slope_sq" .f32 0x38D1B717#32 ((28823036326681 / 288230376151711744 : ℝ) : EReal)
  ∧ IdealRules.named_const.Statement Cert.KernelIdeal.κ "neg_slope_sq" .f32 0x38D1B717#32 ((28823036326681 / 288230376151711744 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S160000 : Shape := ⟨1, ![160000]⟩
abbrev S1600000 : Shape := ⟨1, ![1600000]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S160000 : S_.BroadcastsInDim S160000 (![] : Fin 0 → Fin S160000.rank)
  reducesTo_S160000_S_d0 : S160000.ReducesTo [0] S_

variable [Facts]

def fn_part2 {F : FTy → Type} [FloatOps F] (main_arg7 : FVec F S128 .f32) (main_arg8 : FVec F S160000 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S160000 .f32 := Host.absf main_arg8
  let main_cst_14 : FVec F S_ .f32 := constant S_ .f32 0x7F800000#32
  let main_v40 : FVec F S160000 .f32 := broadcastInDim S160000 ![] bcast_S_S160000 main_cst_14
  let main_v41 : IVec S160000 1 := cmpf .olt main_v39 main_v40
  let main_c_15 : IVec S_ 1 := constantI S_ 1 1#1
  let main_v42 : IVec S_ 1 := (fun x v => Host.reduce IntOp.andi x v reducesTo_S160000_S_d0 h_S_) main_v41 main_c_15
  let main_v43 : IVec S_ 1 := andi main_v38 main_v42
  main_v43

def fn_part1 {F : FTy → Type} [FloatOps F] (main_arg4 : FVec F S128x128 .f32) (main_arg5 : FVec F S128 .f32) (main_arg6 : FVec F S128x128 .f32) (main_arg7 : FVec F S128 .f32) (main_arg8 : FVec F S160000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S10000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S160000 .f32) (main_arg9 : IVec S1600000 32) (main_arg10 : IVec S1600000 32) (main_arg11 : IVec S800000 32) (main_arg12 : IVec S800000 32) (main_arg13 : IVec S160000 32) (main_arg14 : IVec S160000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S160000 : Shape := ⟨1, ![160000]⟩
abbrev S1600000 : Shape := ⟨1, ![1600000]⟩
abbrev S800000 : Shape := ⟨1, ![800000]⟩
abbrev S_ : Shape := ⟨0, ![]⟩
abbrev S100000 : Shape := ⟨1, ![100000]⟩
abbrev S1600000x1 : Shape := ⟨2, ![1600000, 1]⟩
abbrev S800000x1 : Shape := ⟨2, ![800000, 1]⟩
abbrev S10000 : Shape := ⟨1, ![10000]⟩
abbrev S100000x1 : Shape := ⟨2, ![100000, 1]⟩
abbrev S2000x128 : Shape := ⟨2, ![2000, 128]⟩
abbrev S2000x1 : Shape := ⟨2, ![2000, 1]⟩
abbrev S1600000x128 : Shape := ⟨2, ![1600000, 128]⟩
abbrev S1x128 : Shape := ⟨2, ![1, 128]⟩
abbrev S800000x128 : Shape := ⟨2, ![800000, 128]⟩
abbrev S10000x1 : Shape := ⟨2, ![10000, 1]⟩
abbrev S1000x128 : Shape := ⟨2, ![1000, 128]⟩
abbrev S1000x1 : Shape := ⟨2, ![1000, 1]⟩
abbrev S160000x1 : Shape := ⟨2, ![160000, 1]⟩
abbrev S160000x128 : Shape := ⟨2, ![160000, 128]⟩

abbrev nBuf : Space → Nat
  | .hbm => 128
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S160000, .f32⟩
  | .hbm, ⟨9, _⟩ => ⟨S1600000, .i32⟩
  | .hbm, ⟨10, _⟩ => ⟨S1600000, .i32⟩
  | .hbm, ⟨11, _⟩ => ⟨S800000, .i32⟩
  | .hbm, ⟨12, _⟩ => ⟨S800000, .i32⟩
  | .hbm, ⟨13, _⟩ => ⟨S160000, .i32⟩
  | .hbm, ⟨14, _⟩ => ⟨S160000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S100000, .f32⟩
  | .hbm, ⟨39, _⟩ => ⟨S800000x1, .i32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S10000, .f32⟩
  | .hbm, ⟨47, _⟩ => ⟨S800000x1, .i32⟩
  | .hbm, ⟨48, _⟩ => ⟨S10000, .f32⟩
  | .hbm, ⟨49, _⟩ => ⟨S_, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S100000, .f32⟩
  | .hbm, ⟨54, _⟩ => ⟨S10000, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x1, .f32⟩
  | .hbm, ⟨73, _⟩ => ⟨S1x128, .f32⟩
  | .hbm, ⟨74, _⟩ => ⟨S100000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S10000x128, .f32⟩
  | .hbm, ⟨86, _⟩ => ⟨S800000x1, .i32⟩
  | .hbm, ⟨87, _⟩ => ⟨S10000x128, .f32⟩
  | .hbm, ⟨88, _⟩ => ⟨S10000x1, .f32⟩
  | .hbm, ⟨89, _⟩ => ⟨S1x128, .f32⟩
  | .hbm, ⟨90, _⟩ => ⟨S10000x128, .f32⟩
  | .hbm, ⟨91, _⟩ => ⟨S_, .f32⟩
  | .hbm, ⟨92, _⟩ => ⟨S10000, .f32⟩
  | .hbm, ⟨93, _⟩ => ⟨S160000x1, .i32⟩
  | .hbm, ⟨94, _⟩ => ⟨S10000, .f32⟩
  | .hbm, ⟨95, _⟩ => ⟨S_, .f32⟩
  | .hbm, ⟨96, _⟩ => ⟨S_, .f32⟩
  | .hbm, ⟨97, _⟩ => ⟨S10000, .f32⟩
  | .hbm, ⟨98, _⟩ => ⟨S10000, .f32⟩
  | .hbm, ⟨99, _⟩ => ⟨S_, .i32⟩
  | .hbm, ⟨100, _⟩ => ⟨S160000, .i32⟩
  | .hbm, ⟨101, _⟩ => ⟨S160000, .i1⟩
  | .hbm, ⟨102, _⟩ => ⟨S_, .i32⟩
  | .hbm, ⟨103, _⟩ => ⟨S160000, .i32⟩
  | .hbm, ⟨104, _⟩ => ⟨S160000, .i32⟩
  | .hbm, ⟨105, _⟩ => ⟨S160000, .i32⟩
  | .hbm, ⟨106, _⟩ => ⟨S160000x1, .i32⟩
  | .hbm, ⟨107, _⟩ => ⟨S160000, .f32⟩
  | .hbm, ⟨108, _⟩ => ⟨S160000, .f32⟩
  | .hbm, ⟨109, _⟩ => ⟨S10000x128, .f32⟩
  | .hbm, ⟨110, _⟩ => ⟨S_, .i32⟩
  | .hbm, ⟨111, _⟩ => ⟨S160000, .i32⟩
  | .hbm, ⟨112, _⟩ => ⟨S160000, .i1⟩
  | .hbm, ⟨113, _⟩ => ⟨S_, .i32⟩
  | .hbm, ⟨114, _⟩ => ⟨S160000, .i32⟩
  | .hbm, ⟨115, _⟩ => ⟨S160000, .i32⟩
  | .hbm, ⟨116, _⟩ => ⟨S160000, .i32⟩
  | .hbm, ⟨117, _⟩ => ⟨S160000x1, .i32⟩
  | .hbm, ⟨118, _⟩ => ⟨S160000x128, .f32⟩
  | .hbm, ⟨119, _⟩ => ⟨S160000x1, .f32⟩
  | .hbm, ⟨120, _⟩ => ⟨S160000x128, .f32⟩
  | .hbm, ⟨121, _⟩ => ⟨S160000x128, .f32⟩
  | .hbm, ⟨122, _⟩ => ⟨S_, .f32⟩
  | .hbm, ⟨123, _⟩ => ⟨S10000x128, .f32⟩
  | .hbm, ⟨124, _⟩ => ⟨S160000x1, .i32⟩
  | .hbm, ⟨125, _⟩ => ⟨S10000x128, .f32⟩
  | .hbm, ⟨126, _⟩ => ⟨S1x128, .f32⟩
  | .hbm, ⟨127, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S1000x128, .f32⟩
  | .local _ .vmem, ⟨20, _⟩ => ⟨S1000x128, .f32⟩
  | .local _ .vmem, ⟨21, _⟩ => ⟨S1000x1, .f32⟩
  | .local _ .vmem, ⟨22, _⟩ => ⟨S1000x1, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S128x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1x128, .f32⟩
  | .local _ .vmem, ⟨34, _⟩ => ⟨S1000x128, .f32⟩
  | .local _ .vmem, ⟨35, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_4 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_v15 : Ref sig .tc := ⟨.hbm, 44, rfl⟩
abbrev main_cst_7 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_8 : Ref sig .tc := ⟨.hbm, 49, rfl⟩
abbrev main_call3_v0 : Ref sig .tc := ⟨.hbm, 50, rfl⟩
abbrev main_call3_v1 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24_0 : Ref sig .tc := ⟨.hbm, 57, rfl⟩
abbrev main_v24_1 : Ref sig .tc := ⟨.hbm, 58, rfl⟩
abbrev main_c : Ref sig .tc := ⟨.hbm, 59, rfl⟩
abbrev main_v25 : Ref sig .tc := ⟨.hbm, 60, rfl⟩
abbrev main_v26 : Ref sig .tc := ⟨.hbm, 61, rfl⟩
abbrev main_c_9 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_10 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_11 : Ref sig .tc := ⟨.hbm, 75, rfl⟩
abbrev main_v38 : Ref sig .tc := ⟨.hbm, 76, rfl⟩
abbrev main_v39 : Ref sig .tc := ⟨.hbm, 77, rfl⟩
abbrev main_c_12 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_13 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_v54 : Ref sig .tc := ⟨.hbm, 98, rfl⟩
abbrev main_c_16 : Ref sig .tc := ⟨.hbm, 99, rfl⟩
abbrev main_v55 : Ref sig .tc := ⟨.hbm, 100, rfl⟩
abbrev main_v56 : Ref sig .tc := ⟨.hbm, 101, rfl⟩
abbrev main_c_17 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c_18 : Ref sig .tc := ⟨.hbm, 110, rfl⟩
abbrev main_v64 : Ref sig .tc := ⟨.hbm, 111, rfl⟩
abbrev main_v65 : Ref sig .tc := ⟨.hbm, 112, rfl⟩
abbrev main_c_19 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_20 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S10000 : S_.BroadcastsInDim S10000 (![] : Fin 0 → Fin S10000.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S10000x128 : S_.BroadcastsInDim S10000x128 (![] : Fin 0 → Fin S10000x128.rank)
  shapeCasts_S10000_S10000x1 : S10000.ShapeCasts S10000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x128_0_1 : S160000x1.BroadcastsInDim S160000x128 (![0, 1] : Fin 2 → Fin S160000x128.rank)
  scatter_S100000_S1600000x1_S1600000_n_0_0_1_wf : ScatterDims.WF S100000 S1600000x1 S1600000 [] [0] [0] 1
  scatter_S100000_S800000x1_S800000_n_0_0_1_wf : ScatterDims.WF S100000 S800000x1 S800000 [] [0] [0] 1
  scatter_S10000_S800000x1_S800000_n_0_0_1_wf : ScatterDims.WF S10000 S800000x1 S800000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S800000x1_S800000x128_1_0_n_n_0_1_1128_wf : GatherDims.WF S100000x128 S800000x1 S800000x128 [1] [0] [] [0] [] 1 ![1, 128]
  scatter_S10000x128_S800000x1_S800000x128_1_0_0_1_wf : ScatterDims.WF S10000x128 S800000x1 S800000x128 [1] [0] [0] 1
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S1000x128_S128x128_S1000x128_1_0_0_1_n_n_wf : DotDims.WF S1000x128 S128x128 S1000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S10000x1.size a
  hwx2_1 : ∀ i : grid2.Coords, EltTy.bits .f32 = 32 ∨ (Rect.block (s := S10000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S10000x128.size a
  hwx2_3 : ∀ i : grid2.Coords, EltTy.bits .f32 = 32 ∨ (Rect.block (s := S10000x128) S1000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S10000x128.size a
  hwx3_2 : ∀ i : grid3.Coords, EltTy.bits .f32 = 32 ∨ (Rect.block (s := S10000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S10000x128.size a
  hwx4_0 : ∀ i : grid4.Coords, EltTy.bits .f32 = 32 ∨ (Rect.block (s := S10000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S10000x128.size a
  hwx4_2 : ∀ i : grid4.Coords, EltTy.bits .f32 = 32 ∨ (Rect.block (s := S10000x128) S1000x128.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S10000x128 : Shape := ⟨2, ![10000, 128]⟩
abbrev S128x128 : Shape := ⟨2, ![128, 128]⟩
abbrev S128 : Shape := ⟨1, ![128]⟩
abbrev S160000 : Shape := ⟨1, ![160000]⟩
abbrev S1600000 : Shape := ⟨1, ![1600000]⟩
abbrev S800000 : Shape := ⟨1, ![800000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S800000x1 : Shape := ⟨2, ![800000, 1]⟩
abbrev S10000 : Shape := ⟨1, ![10000]⟩
abbrev S800000x128 : Shape := ⟨2, ![800000, 128]⟩
abbrev S10000x1 : Shape := ⟨2, ![10000, 1]⟩
abbrev S160000x1 : Shape := ⟨2, ![160000, 1]⟩
abbrev S160000x128 : Shape := ⟨2, ![160000, 128]⟩

abbrev nBuf : Space → Nat
  | .hbm => 174
  | .vmem => 0
  | .smem => 0
  | _ => 0

abbrev hbmTy0_0 (i : Nat) : BufTy := match i % 128 with
  | 0 => ⟨S100000x128, .f32⟩
  | 1 => ⟨S10000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S160000, .f32⟩
  | 9 => ⟨S1600000, .i32⟩
  | 10 => ⟨S1600000, .i32⟩
  | 11 => ⟨S800000, .i32⟩
  | 12 => ⟨S800000, .i32⟩
  | 13 => ⟨S160000, .i32⟩
  | 14 => ⟨S160000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S100000, .f32⟩
  | 52 => ⟨S100000x1, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .i1⟩
  | 61 => ⟨S_, .f32⟩
  | 62 => ⟨S100000x128, .f32⟩
  | 63 => ⟨S100000x128, .f32⟩
  | 64 => ⟨S100000x128, .f32⟩
  | 65 => ⟨S_, .f32⟩
  | 66 => ⟨S800000, .f32⟩
  | 67 => ⟨S_, .f32⟩
  | 68 => ⟨S100000, .f32⟩
  | 69 => ⟨S800000x1, .i32⟩
  | 70 => ⟨S100000, .f32⟩
  | 71 => ⟨S_, .f32⟩
  | 72 => ⟨S_, .f32⟩
  | 73 => ⟨S100000, .f32⟩
  | 74 => ⟨S100000, .f32⟩
  | 75 => ⟨S_, .f32⟩
  | 76 => ⟨S10000, .f32⟩
  | 77 => ⟨S800000x1, .i32⟩
  | 78 => ⟨S10000, .f32⟩
  | 79 => ⟨S_, .f32⟩
  | 80 => ⟨S_, .f32⟩
  | 81 => ⟨S10000, .f32⟩
  | 82 => ⟨S10000, .f32⟩
  | 83 => ⟨S100000, .f32⟩
  | 84 => ⟨S100000x1, .f32⟩
  | 85 => ⟨S100000x128, .f32⟩
  | 86 => ⟨S100000x128, .f32⟩
  | 87 => ⟨S100000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S10000x128, .f32⟩
  | 99 => ⟨S800000x1, .i32⟩
  | 100 => ⟨S10000x128, .f32⟩
  | 101 => ⟨S10000, .f32⟩
  | 102 => ⟨S10000x1, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S_, .f32⟩
  | 109 => ⟨S10000x128, .f32⟩
  | 110 => ⟨S10000x128, .i1⟩
  | 111 => ⟨S_, .f32⟩
  | 112 => ⟨S10000x128, .f32⟩
  | 113 => ⟨S10000x128, .f32⟩
  | 114 => ⟨S10000x128, .f32⟩
  | 115 => ⟨S_, .f32⟩
  | 116 => ⟨S10000, .f32⟩
  | 117 => ⟨S160000x1, .i32⟩
  | 118 => ⟨S10000, .f32⟩
  | 119 => ⟨S_, .f32⟩
  | 120 => ⟨S_, .f32⟩
  | 121 => ⟨S10000, .f32⟩
  | 122 => ⟨S10000, .f32⟩
  | 123 => ⟨S_, .i32⟩
  | 124 => ⟨S160000, .i32⟩
  | 125 => ⟨S160000, .i1⟩
  | 126 => ⟨S_, .i32⟩
  | 127 => ⟨S160000, .i32⟩
  | _ => ⟨S100000x128, .f32⟩

abbrev hbmTy0_1 (i : Nat) : BufTy := match i % 128 with
  | 0 => ⟨S160000, .i32⟩
  | 1 => ⟨S160000, .i32⟩
  | 2 => ⟨S160000x1, .i32⟩
  | 3 => ⟨S160000, .f32⟩
  | 4 => ⟨S160000, .f32⟩
  | 5 => ⟨S10000x128, .f32⟩
  | 6 => ⟨S_, .i32⟩
  | 7 => ⟨S160000, .i32⟩
  | 8 => ⟨S160000, .i1⟩
  | 9 => ⟨S_, .i32⟩
  | 10 => ⟨S160000, .i32⟩
  | 11 => ⟨S160000, .i32⟩
  | 12 => ⟨S160000, .i32⟩
  | 13 => ⟨S160000x1, .i32⟩
  | 14 => ⟨S160000x128, .f32⟩
  | 15 => ⟨S160000x1, .f32⟩
  | 16 => ⟨S160000x128, .f32⟩
  | 17 => ⟨S160000x128, .f32⟩
  | 18 => ⟨S_, .f32⟩
  | 19 => ⟨S10000x128, .f32⟩
  | 20 => ⟨S160000x1, .i32⟩
  | 21 => ⟨S10000x128, .f32⟩
  | 22 => ⟨S1x128, .f32⟩
  | 23 => ⟨S10000x128, .f32⟩
  | 24 => ⟨S10000x128, .f32⟩
  | 25 => ⟨S_, .f32⟩
  | 26 => ⟨S10000x128, .f32⟩
  | 27 => ⟨S10000x128, .i1⟩
  | 28 => ⟨S_, .f32⟩
  | 29 => ⟨S10000x128, .f32⟩
  | 30 => ⟨S10000x128, .f32⟩
  | 31 => ⟨S10000x128, .f32⟩
  | 32 => ⟨S_, .f32⟩
  | 33 => ⟨S100000x128, .f32⟩
  | 34 => ⟨S100000x128, .i1⟩
  | 35 => ⟨S_, .f32⟩
  | 36 => ⟨S100000x128, .f32⟩
  | 37 => ⟨S100000x128, .f32⟩
  | 38 => ⟨S100000x128, .f32⟩
  | 39 => ⟨S_, .f32⟩
  | 40 => ⟨S10000x128, .f32⟩
  | 41 => ⟨S10000x128, .i1⟩
  | 42 => ⟨S_, .f32⟩
  | 43 => ⟨S10000x128, .f32⟩
  | 44 => ⟨S10000x128, .f32⟩
  | 45 => ⟨S10000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_10 : Ref sig .tc := ⟨.hbm, 71, rfl⟩
abbrev main_call3_v0 : Ref sig .tc := ⟨.hbm, 72, rfl⟩
abbrev main_call3_v1 : Ref sig .tc := ⟨.hbm, 73, rfl⟩
abbrev main_v40 : Ref sig .tc := ⟨.hbm, 74, rfl⟩
abbrev main_cst_11 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_12 : Ref sig .tc := ⟨.hbm, 79, rfl⟩
abbrev main_call4_v0 : Ref sig .tc := ⟨.hbm, 80, rfl⟩
abbrev main_call4_v1 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_13 : Ref sig .tc := ⟨.hbm, 88, rfl⟩
abbrev main_v50 : Ref sig .tc := ⟨.hbm, 89, rfl⟩
abbrev main_v51 : Ref sig .tc := ⟨.hbm, 90, rfl⟩
abbrev main_c_14 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_15 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_16 : Ref sig .tc := ⟨.hbm, 108, rfl⟩
abbrev main_v67 : Ref sig .tc := ⟨.hbm, 109, rfl⟩
abbrev main_v68 : Ref sig .tc := ⟨.hbm, 110, rfl⟩
abbrev main_cst_17 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_18 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_19 : Ref sig .tc := ⟨.hbm, 119, rfl⟩
abbrev main_call6_v0 : Ref sig .tc := ⟨.hbm, 120, rfl⟩
abbrev main_call6_v1 : Ref sig .tc := ⟨.hbm, 121, rfl⟩
abbrev main_v75 : Ref sig .tc := ⟨.hbm, 122, rfl⟩
abbrev main_c_20 : Ref sig .tc := ⟨.hbm, 123, rfl⟩
abbrev main_v76 : Ref sig .tc := ⟨.hbm, 124, rfl⟩
abbrev main_v77 : Ref sig .tc := ⟨.hbm, 125, rfl⟩
abbrev main_c_21 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_22 : Ref sig .tc := ⟨.hbm, 134, rfl⟩
abbrev main_v85 : Ref sig .tc := ⟨.hbm, 135, rfl⟩
abbrev main_v86 : Ref sig .tc := ⟨.hbm, 136, rfl⟩
abbrev main_c_23 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_24 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_25 : Ref sig .tc := ⟨.hbm, 153, rfl⟩
abbrev main_v101 : Ref sig .tc := ⟨.hbm, 154, rfl⟩
abbrev main_v102 : Ref sig .tc := ⟨.hbm, 155, rfl⟩
abbrev main_cst_26 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_27 : Ref sig .tc := ⟨.hbm, 160, rfl⟩
abbrev main_v106 : Ref sig .tc := ⟨.hbm, 161, rfl⟩
abbrev main_v107 : Ref sig .tc := ⟨.hbm, 162, rfl⟩
abbrev main_cst_28 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_29 : Ref sig .tc := ⟨.hbm, 167, rfl⟩
abbrev main_v111 : Ref sig .tc := ⟨.hbm, 168, rfl⟩
abbrev main_v112 : Ref sig .tc := ⟨.hbm, 169, rfl⟩
abbrev main_cst_30 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S10000 : S_.BroadcastsInDim S10000 (![] : Fin 0 → Fin S10000.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S1x128_S10000x128_0_1 : S1x128.BroadcastsInDim S10000x128 (![0, 1] : Fin 2 → Fin S10000x128.rank)
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x128_0_1 : S160000x1.BroadcastsInDim S160000x128 (![0, 1] : Fin 2 → Fin S160000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S800000x1_S800000_n_0_0_1_wf : ScatterDims.WF S100000 S800000x1 S800000 [] [0] [0] 1
  scatter_S10000_S800000x1_S800000_n_0_0_1_wf : ScatterDims.WF S10000 S800000x1 S800000 [] [0] [0] 1
  gather_S100000x128_S800000x1_S800000x128_1_0_n_n_0_1_1128_wf : GatherDims.WF S100000x128 S800000x1 S800000x128 [1] [0] [] [0] [] 1 ![1, 128]
  scatter_S10000x128_S800000x1_S800000x128_1_0_0_1_wf : ScatterDims.WF S10000x128 S800000x1 S800000x128 [1] [0] [0] 1
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S10000x128_S128x128_S10000x128_1_0_0_1_n_n_wf : DotDims.WF S10000x128 S128x128 S10000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf

class Facts : Prop extends Facts₀ where

variable [Facts]
-- ==== Proof.KernelRun.lean ====
/-
  The idealized kernel program's run with its two results kept.

  The program is five tiled regions among stretches of host operations. Its run is a fold of buffer contents from the
  launch memory through every stretch and every region; the last boundary's contents are `W20`. The frame statement
  forgets everything but the arguments; here the same run is read at the two result tables as well: the paper result
  (`main_v37`) and the snapshot result (`main_v78`) end at what the fold holds for them, the arguments unchanged.
-/
import proofs.«117665_j24180665876677_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the two result tables at the last
    boundary's contents and the arguments as launched. -/
theorem run_values : θ_run defs (onTc (τ := τ) (main (F := F))) ⟨m, fun _ => 0, ρ⟩ (fun r => ∀ c : Dev nD,
      r.2.mem ((c.tc : Thread nD τ).loc main_v37) = W20 m ρ c (Proc.devRef .tc main_v37)
      ∧ r.2.mem ((c.tc : Thread nD τ).loc main_v78) = W20 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v37 (by decide)), h c _ (mem_uc main_v78 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c)⟩)

end Cert.KernelIdeal.RunValues

end
-- ==== Proof.Spec.lean ====
/-
  The dense stages of the layer as whole-array functions.

  Every dense stage of the two-relation graph layer acts row by row on a node table: a table of N rows and 128
  columns goes in, a table of the same extents comes out, and row r of the result depends on row r of the operands
  alone. There are four kinds, each on the paper table (100000 rows) or the snapshot table (10000 rows):

  • the projection with a per-row factor:  out(r, q) = Σ_k (x(r, k) · s(r)) · W(k, q), the factor a column [N, 1];
  • the plain projection:                   out(r, q) = Σ_k x(r, k) · W(k, q);
  • the affine epilogue:                    y(r, q) = raw(r, q) · s(r) + b(q)   (or raw(r, q) + b(q)), the bias a row [1, 128];
  • the leaky rectifier:                    y ↦ y where y ≥ 0, slope · y elsewhere, the slope the 32-bit float nearest 0.01.

  They are written here exactly as a host program spells them (a product of the whole tables, broadcasts of the column,
  of the row and of the two scalar constants), over the reference program's shape and dimension records, so that the
  reference's own stages unfold to them and a tiled kernel's blocks can be compared with them.
-/
import proofs.«117665_j24180665876677_2_alg».proof.Proof.Gen.ReferenceIdeal

noncomputable section

namespace Cert.Spec

open Idealize.ShloMosaic Cert.ReferenceIdeal Cert.ReferenceIdeal.Gen

variable {F : FTy → Type} [FloatOps F]

/-! ## The paper table: 100000 rows -/

/-- Rows of `x` scaled by the column `s`, then multiplied by `W`. -/
def scaledDotP (x : FVec F S100000x128 .f32) (s : FVec F S100000x1 .f32) (W : FVec F S128x128 .f32) :
    FVec F S100000x128 .f32 :=
  Host.dotGeneral dot_S100000x128_S128x128_S100000x128_1_0_0_1_n_n none
    (mulf x (broadcastInDim S100000x128 ![0, 1] bcast_S100000x1_S100000x128_0_1 s)) W

/-- `raw · s + b`: the column `s` repeated along the columns, the row `b` down the rows. -/
def affineP (raw : FVec F S100000x128 .f32) (s : FVec F S100000x1 .f32) (b : FVec F S1x128 .f32) :
    FVec F S100000x128 .f32 :=
  addf (mulf raw (broadcastInDim S100000x128 ![0, 1] bcast_S100000x1_S100000x128_0_1 s))
    (broadcastInDim S100000x128 ![0, 1] bcast_S1x128_S100000x128_0_1 b)

/-- The leaky rectifier with the slope `0x3C23D70A` (0.01 rounded to a 32-bit float). -/
def leakyP (y : FVec F S100000x128 .f32) : FVec F S100000x128 .f32 :=
  select (cmpf .oge y (broadcastInDim S100000x128 ![] bcast_S_S100000x128 (constant S_ .f32 0x00000000#32))) y
    (mulf (broadcastInDim S100000x128 ![] bcast_S_S100000x128 (constant S_ .f32 0x3C23D70A#32)) y)

/-! ## The snapshot table: 10000 rows -/

/-- `x · W`. -/
def dotS (x : FVec F S10000x128 .f32) (W : FVec F S128x128 .f32) : FVec F S10000x128 .f32 :=
  Host.dotGeneral dot_S10000x128_S128x128_S10000x128_1_0_0_1_n_n none x W

/-- `raw · s + b`. -/
def affineS (raw : FVec F S10000x128 .f32) (s : FVec F S10000x1 .f32) (b : FVec F S1x128 .f32) :
    FVec F S10000x128 .f32 :=
  addf (mulf raw (broadcastInDim S10000x128 ![0, 1] bcast_S10000x1_S10000x128_0_1 s))
    (broadcastInDim S10000x128 ![0, 1] bcast_S1x128_S10000x128_0_1 b)

/-- `raw + b`. -/
def biasS (raw : FVec F S10000x128 .f32) (b : FVec F S1x128 .f32) : FVec F S10000x128 .f32 :=
  addf raw (broadcastInDim S10000x128 ![0, 1] bcast_S1x128_S10000x128_0_1 b)

/-- The leaky rectifier with the slope `0x3C23D70A`. -/
def leakyS (y : FVec F S10000x128 .f32) : FVec F S10000x128 .f32 :=
  select (cmpf .oge y (broadcastInDim S10000x128 ![] bcast_S_S10000x128 (constant S_ .f32 0x00000000#32))) y
    (mulf (broadcastInDim S10000x128 ![] bcast_S_S10000x128 (constant S_ .f32 0x3C23D70A#32)) y)

end Cert.Spec

end
-- ==== Proof.LibCastBroadcast.lean ====
/-
  A vector laid out as a column or as a row: the reshape and the broadcast are one function.

  A vector of N entries becomes an N×1 column either by a shape cast (the entries keep their row-major order) or by a
  broadcast that puts the vector's axis on axis 0; it becomes a 1×n row either by a shape cast or by a broadcast that puts
  its axis on axis 1. In each pair the two arrays have the same entries: the column's entry (r, 0) is the vector's entry r,
  the row's entry (0, q) is the vector's entry q. Generic in the extent and the element type (for the column the extent
  must not be the unit extent, so that the broadcast reads the row coordinate).
-/
import Idealize.ShloMosaic.Lib.Pipeline.Value
import Idealize.ShloMosaic.Lib.ValueIdx

namespace Cert.LibCastBroadcast

open Idealize.ShloMosaic Idealize.ShloMosaic.ValueIdx

variable {α : Type}

/-- [N] → [N, 1]: the cast is the broadcast along axis 0. -/
theorem colCast_eq {N : Nat} (hN : N ≠ 1) (v : (⟨1, ![N]⟩ : Shape).Idx → α)
    (h : (⟨1, ![N]⟩ : Shape).ShapeCasts ⟨2, ![N, 1]⟩) (h' : (⟨1, ![N]⟩ : Shape).BroadcastsInDim ⟨2, ![N, 1]⟩ ![0]) :
    shapeCast ⟨2, ![N, 1]⟩ v h = broadcastInDim ⟨2, ![N, 1]⟩ ![0] h' v := by
  funext i
  obtain ⟨r, z, rfl⟩ : ∃ (r : Fin N) (z : Fin 1), i = ix2 r z := ⟨i 0, i 1, eq_ix2 i⟩
  rw [broadcastInDim_apply ![0] h' v (ix2 r z) (ix1 r) (fun a => match a with
    | ⟨0, _⟩ => by show r.val = if N = 1 then 0 else r.val; rw [if_neg hN])]
  refine shapeCast_apply v h (ix2 r z) (ix1 r) ?_
  rw [Shape.rowMajor_val_one, Shape.rowMajor_val_two]
  show r.val = r.val * 1 + z.val
  have := z.isLt; omega

/-- [n] → [1, n]: the cast is the broadcast along axis 1. -/
theorem rowCast_eq {n : Nat} (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨z, q, rfl⟩ : ∃ (z : Fin 1) (q : Fin n), i = ix2 z q := ⟨i 0, i 1, eq_ix2 i⟩
  obtain rfl : z = 0 := Subsingleton.elim _ _
  rw [shapeCast_apply v h (ix2 (0 : Fin 1) q) (ix1 q) (by
      rw [Shape.rowMajor_val_one, Shape.rowMajor_val_two]; show q.val = 0 * n + q.val; omega),
    broadcastInDim_apply ![1] h' v (ix2 (0 : Fin 1) q) (ix1 q) (fun a => match a with
      | ⟨0, _⟩ => by
        show q.val = if n = 1 then 0 else q.val
        split
        · have := q.isLt; omega
        · rfl)]

end Cert.LibCastBroadcast
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibUnitAxes.lean ====
/-
  Three layout operations read at an index given by its coordinates, generic in the extents and the element type.
  • A shape cast that DROPS two leading unit axes, [1, 1, a, b] → [a, b], reads at (p, c) the operand at (0, 0, p, c); the
    cast that ADDS them, [a, b] → [1, 1, a, b], reads at (0, 0, p, c) the operand at (p, c): the row-major position of
    (0, 0, p, c) in [1, 1, a, b] is p·b + c, that of (p, c) in [a, b].
  • A column [a, 1] broadcast along the second axis to [a, b] reads at (p, c) the column's entry p, whatever c.
-/
import Idealize.ShloMosaic.Lib.ValueLayout

namespace Cert.LibUnitAxes

open Idealize.ShloMosaic Idealize.ShloMosaic.ValueIdx

variable {α : Type}

/-- [1, 1, a, b] cast to [a, b], at (p, c): the operand at (0, 0, p, c). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h (ix2 p c) (ix4 (0 : Fin 1) (0 : Fin 1) p c) (by
    rw [Shape.rowMajor_val_four, Shape.rowMajor_val_two]
    show (((0 * 1 + 0) * a + p.val) * b + c.val) = p.val * b + c.val
    simp only [Nat.zero_mul, Nat.zero_add])

/-- [a, b] cast to [1, 1, a, b], at (0, 0, p, c): the operand at (p, c). -/
theorem shapeCast_ab_11ab_apply {a b : ℕ} (x : (⟨2, ![a, b]⟩ : Shape).Idx → α)
    (h : (⟨2, ![a, b]⟩ : Shape).ShapeCasts ⟨4, ![1, 1, a, b]⟩) (p : Fin a) (c : Fin b) :
    shapeCast ⟨4, ![1, 1, a, b]⟩ x h (ix4 (0 : Fin 1) (0 : Fin 1) p c) = x (ix2 p c) :=
  shapeCast_apply x h (ix4 (0 : Fin 1) (0 : Fin 1) p c) (ix2 p c) (by
    rw [Shape.rowMajor_val_four, Shape.rowMajor_val_two]
    show p.val * b + c.val = (((0 * 1 + 0) * a + p.val) * b + c.val)
    simp only [Nat.zero_mul, Nat.zero_add])

/-- A column [a, 1] broadcast to [a, b], at (p, c): the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibUnitAxes
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibGcnBlocks.lean ====
/-
  Three dense graph-convolution bodies read block by block, at the extended reals.

  A node-tiled kernel sees m consecutive rows of an M-row array at a time: block row a stands for array row `row a`.
  Each lemma says that what the body computes at entry (a, b) of its block is what the corresponding whole-array
  host formula computes at entry (row a, b), given only that the block operands read the arrays at those rows:

  • rows scaled by a per-row factor, then multiplied by a matrix:  Σ_c (X(r,c) · s(r)) · W(c,b);
  • an aggregate scaled per row, a bias row added, clipped below at zero:  max(A(r,b) · s(r) + β(b), 0);
  • a matrix product with a bias row added:  Σ_c X(r,c) · W(c,b) + β(b).

  The per-row factor is a column [M,1] repeated along the columns, the bias a row [1,N] repeated down the rows. A
  change of float format is the identity on extended reals, the kernel's product accumulates into the zero block,
  and the zero the maximum is taken against is the same word on both sides, so nothing of real arithmetic is used:
  every statement holds at the infinities too. Generic in all extents (M must not be the unit extent, so that the
  column's row coordinate is read and not collapsed).
-/
import Idealize.ShloMosaic.Lib.StackMember
import Idealize.ShloMosaic.Lib.KernelVsHost
import Idealize.ShloMosaic.Lib.ValueLayout
import proofs.«117665_j24180665876677_2_alg».proof.Proof.LibRowBlockDot
import proofs.«117665_j24180665876677_2_alg».proof.Proof.LibUnitAxes
import proofs.«117665_j24180665876677_2_alg».proof.Proof.LibHostReads

noncomputable section

namespace Cert.LibGcnBlocks

open Idealize.ShloMosaic Idealize.ShloMosaic.ValueIdx

/-- Rows scaled by a per-row factor and multiplied by a matrix: the block's product into the zero accumulator, at
    (a, b), is the whole scaled product at (row a, b). -/
theorem scaledDot_block {M m K N : Nat} (hM : M ≠ 1) (prec prec' : Option ContractPrecision)
    (X : FVec Ideal ⟨2, ![M, K]⟩ .f32) (S : FVec Ideal ⟨2, ![M, 1]⟩ .f32) (W : FVec Ideal ⟨2, ![K, N]⟩ .f32)
    (x0 : FVec Ideal ⟨2, ![m, K]⟩ .f32) (x1 : FVec Ideal ⟨2, ![m, 1]⟩ .f32) (w : FVec Ideal ⟨2, ![K, N]⟩ .f32)
    (row : Fin m → Fin M)
    (h0 : ∀ a c, x0 (ix2 a c) = X (ix2 (row a) c))
    (h1 : ∀ a, x1 (ix2 a (0 : Fin 1)) = S (ix2 (row a) (0 : Fin 1)))
    (hw : ∀ c b, w (ix2 c b) = W (ix2 c b))
    (hc : (⟨2, ![m, 1]⟩ : Shape).ShapeCasts ⟨2, ![m, 1]⟩) (hb : (⟨2, ![m, 1]⟩ : Shape).Broadcasts ⟨2, ![m, K]⟩)
    (hB : (⟨2, ![M, 1]⟩ : Shape).BroadcastsInDim ⟨2, ![M, K]⟩ ![0, 1])
    (ht : FTy.bf16.bits < FTy.f32.bits)
    (j : (⟨2, ![m, N]⟩ : Shape).Idx) (i : (⟨2, ![M, N]⟩ : Shape).Idx)
    (hi0 : (i 0).val = (row (j 0)).val) (hi1 : (i 1).val = (j 1).val) :
    matmul (DotDims.plain m K N) prec
        (truncf .bf16 (mulf x0 (broadcastTo ⟨2, ![m, K]⟩ (shapeCast ⟨2, ![m, 1]⟩ x1 hc) hb)) ht)
        (truncf .bf16 w ht) (constant (F := Ideal) ⟨2, ![m, N]⟩ .f32 0x00000000#32) j
      = Host.dotGeneral (DotDims.plain M K N) prec' (mulf X (broadcastInDim ⟨2, ![M, K]⟩ ![0, 1] hB S)) W i := by
  refine LibRowBlockDot.matmul_rowBlock_apply_idx prec prec' _ W _ _ row (fun a c => ?_) (fun c b => ?_) j i hi0 hi1
  · rw [truncf_apply, mulf_apply, mulf_apply, h0, shapeCast_self, LibUnitAxes.broadcastTo_a1_ab_apply, h1,
      LibHostReads.colBcast_apply hM]
  · rw [truncf_apply, hw]

/-- An aggregate scaled per row, a bias row added, clipped below at zero: the block's value at (a, b) is the whole
    formula at (row a, b). -/
theorem scaleBiasRelu_block {M m N : Nat} (hM : M ≠ 1)
    (A : FVec Ideal ⟨2, ![M, N]⟩ .f32) (S : FVec Ideal ⟨2, ![M, 1]⟩ .f32) (B : FVec Ideal ⟨2, ![1, N]⟩ .f32)
    (x0 : FVec Ideal ⟨2, ![m, N]⟩ .f32) (x1 : FVec Ideal ⟨2, ![m, 1]⟩ .f32) (x2 : FVec Ideal ⟨2, ![1, N]⟩ .f32)
    (row : Fin m → Fin M)
    (h0 : ∀ a c, x0 (ix2 a c) = A (ix2 (row a) c))
    (h1 : ∀ a, x1 (ix2 a (0 : Fin 1)) = S (ix2 (row a) (0 : Fin 1)))
    (h2 : ∀ c, x2 (ix2 (0 : Fin 1) c) = B (ix2 (0 : Fin 1) c))
    (hc0 : (⟨2, ![m, N]⟩ : Shape).ShapeCasts ⟨2, ![m, N]⟩) (hc1 : (⟨2, ![m, 1]⟩ : Shape).ShapeCasts ⟨2, ![m, 1]⟩)
    (hc2 : (⟨2, ![1, N]⟩ : Shape).ShapeCasts ⟨2, ![1, N]⟩)
    (hb1 : (⟨2, ![m, 1]⟩ : Shape).Broadcasts ⟨2, ![m, N]⟩) (hb2 : (⟨2, ![1, N]⟩ : Shape).Broadcasts ⟨2, ![m, N]⟩)
    (hS : (⟨2, ![M, 1]⟩ : Shape).BroadcastsInDim ⟨2, ![M, N]⟩ ![0, 1])
    (hB : (⟨2, ![1, N]⟩ : Shape).BroadcastsInDim ⟨2, ![M, N]⟩ ![0, 1])
    (hZ : (⟨0, ![]⟩ : Shape).BroadcastsInDim ⟨2, ![M, N]⟩ ![])
    (j : (⟨2, ![m, N]⟩ : Shape).Idx) (i : (⟨2, ![M, N]⟩ : Shape).Idx)
    (hi0 : (i 0).val = (row (j 0)).val) (hi1 : (i 1).val = (j 1).val) :
    maximumf (addf (mulf (shapeCast ⟨2, ![m, N]⟩ x0 hc0) (broadcastTo ⟨2, ![m, N]⟩ (shapeCast ⟨2, ![m, 1]⟩ x1 hc1) hb1))
          (broadcastTo ⟨2, ![m, N]⟩ (shapeCast ⟨2, ![1, N]⟩ x2 hc2) hb2))
        (broadcast ⟨2, ![m, N]⟩ (Scalar.ofBits (F := Ideal) .f32 0x00000000#32)) j
      = maximumf (addf (mulf A (broadcastInDim ⟨2, ![M, N]⟩ ![0, 1] hS S)) (broadcastInDim ⟨2, ![M, N]⟩ ![0, 1] hB B))
          (broadcastInDim ⟨2, ![M, N]⟩ ![] hZ (constant (F := Ideal) ⟨0, ![]⟩ .f32 0x00000000#32)) i := by
  obtain ⟨a, b, rfl⟩ : ∃ (a : Fin m) (b : Fin N), j = ix2 a b := ⟨j 0, j 1, eq_ix2 j⟩
  obtain rfl : i = ix2 (row a) b := by
    rw [eq_ix2 i]
    exact congrArg₂ ix2 (Fin.ext hi0) (Fin.ext hi1)
  rw [maximumf_apply, maximumf_apply, addf_apply, addf_apply, mulf_apply, mulf_apply, shapeCast_self,
    shapeCast_self, shapeCast_self, LibUnitAxes.broadcastTo_a1_ab_apply, broadcastTo_1b_ab_apply, h0, h1, h2,
    LibHostReads.colBcast_apply hM, broadcastInDim_oneRow_apply, LibHostReads.splat_apply, broadcast_apply]
  rfl

/-- A matrix product with a bias row added: the block's value at (a, b) is the whole formula at (row a, b). -/
theorem denseBias_block {M m K N : Nat} (prec prec' : Option ContractPrecision)
    (X : FVec Ideal ⟨2, ![M, K]⟩ .f32) (W : FVec Ideal ⟨2, ![K, N]⟩ .f32) (B : FVec Ideal ⟨2, ![1, N]⟩ .f32)
    (x0 : FVec Ideal ⟨2, ![m, K]⟩ .f32) (w : FVec Ideal ⟨2, ![K, N]⟩ .f32) (x2 : FVec Ideal ⟨2, ![1, N]⟩ .f32)
    (row : Fin m → Fin M)
    (h0 : ∀ a c, x0 (ix2 a c) = X (ix2 (row a) c))
    (hw : ∀ c b, w (ix2 c b) = W (ix2 c b))
    (h2 : ∀ c, x2 (ix2 (0 : Fin 1) c) = B (ix2 (0 : Fin 1) c))
    (hc0 : (⟨2, ![m, K]⟩ : Shape).ShapeCasts ⟨2, ![m, K]⟩) (hc2 : (⟨2, ![1, N]⟩ : Shape).ShapeCasts ⟨2, ![1, N]⟩)
    (hb2 : (⟨2, ![1, N]⟩ : Shape).Broadcasts ⟨2, ![m, N]⟩)
    (hB : (⟨2, ![1, N]⟩ : Shape).BroadcastsInDim ⟨2, ![M, N]⟩ ![0, 1])
    (ht : FTy.bf16.bits < FTy.f32.bits)
    (j : (⟨2, ![m, N]⟩ : Shape).Idx) (i : (⟨2, ![M, N]⟩ : Shape).Idx)
    (hi0 : (i 0).val = (row (j 0)).val) (hi1 : (i 1).val = (j 1).val) :
    addf (matmul (DotDims.plain m K N) prec (truncf .bf16 (shapeCast ⟨2, ![m, K]⟩ x0 hc0) ht) (truncf .bf16 w ht)
          (constant (F := Ideal) ⟨2, ![m, N]⟩ .f32 0x00000000#32))
        (broadcastTo ⟨2, ![m, N]⟩ (shapeCast ⟨2, ![1, N]⟩ x2 hc2) hb2) j
      = addf (Host.dotGeneral (DotDims.plain M K N) prec' X W) (broadcastInDim ⟨2, ![M, N]⟩ ![0, 1] hB B) i := by
  rw [addf_apply, addf_apply]
  have hdot := LibRowBlockDot.matmul_rowBlock_apply_idx prec prec' X W
    (truncf .bf16 (shapeCast ⟨2, ![m, K]⟩ x0 hc0) ht) (truncf .bf16 w ht) row
    (fun a c => by rw [truncf_apply, shapeCast_self, h0]) (fun c b => by rw [truncf_apply, hw]) j i hi0 hi1
  rw [hdot]
  obtain ⟨a, b, rfl⟩ : ∃ (a : Fin m) (b : Fin N), j = ix2 a b := ⟨j 0, j 1, eq_ix2 j⟩
  obtain rfl : i = ix2 (row a) b := by
    rw [eq_ix2 i]
    exact congrArg₂ ix2 (Fin.ext hi0) (Fin.ext hi1)
  congr 1
  rw [broadcastTo_1b_ab_apply, shapeCast_self, h2, broadcastInDim_oneRow_apply]

end Cert.LibGcnBlocks

end
-- ==== Proof.Region0.lean ====
/-
  The first dense stage on the paper table: two projections with a per-row factor, computed 2000 rows at a time.

  The table x has 100000 rows and 128 columns. For a column s of 100000 per-row factors and a 128 × 128 matrix W the
  stage computes  out(r, q) = Σ_k (x(r, k) · s(r)) · W(k, q).  It does so twice, from the same table: once with the
  factors s₁ and the matrix W₁, once with s₂ and W₂. The rows are cut into 50 consecutive blocks of 2000; at block p
  the body sees rows 2000·p … 2000·p + 1999 of x, of s₁ and of s₂, and the two matrices whole, and writes rows
  2000·p … 2000·p + 1999 of each result. Row r of a result depends on row r of the operands alone, so what the body
  computes at entry (a, q) of block p is the whole-table formula at entry (2000·p + a, q): the rounding of the
  operands to a shorter float format is the identity on extended reals and the product accumulates into the zero
  block. The 50 blocks cover every row (row r lies in block r / 2000), so each result table ends holding the
  whole-table formula.
-/
import proofs.«117665_j24180665876677_2_alg».proof.Proof.Gen.KernelIdeal.Frame
import proofs.«117665_j24180665876677_2_alg».proof.Proof.Spec
import proofs.«117665_j24180665876677_2_alg».proof.Proof.LibGcnBlocks
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The body reads and writes each of its blocks from the block's first entry. -/
theorem zeroOffsets0 : (![0, 0] : Fin 2 → Nat) = fun _ => 0 := funext fun a => by fin_cases a <;> rfl

/-- Which block each operand shows at point t: the table, the two factor columns and the two results show their
    t-th block of rows, the two matrices their only block. Decided over the 50 points. -/
theorem blockIndices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- There are 50 points. -/
theorem points0_lt (t : Fin cfg0.N) : t.val < 50 := lt_of_lt_of_eq t.isLt N_0

/-! ## The operand blocks at a point, as rows of the whole arrays -/

/-- Entry (a, k) of the table's block at point t is entry (2000·t + a, k) of the table. -/
theorem tableBlock0_apply (t : Fin cfg0.N) (a : Fin 2000) (k : Fin 128) (r : Fin 100000)
    (hr : r.val = t.val * 2000 + a.val) :
    (iblk0 (F := Ideal) V c 0 t : Vec Ideal S2000x128 .f32) (ix2 a k)
      = (V c main_arg0 : S100000x128.Idx → Elt Ideal .f32) (ix2 r k) := by
  obtain ⟨e0, e1, -⟩ := blockIndices0 t
  unfold iblk0
  rw [View.read_apply]
  show V c main_arg0 _ = V c main_arg0 _
  refine congrArg _ ?_
  funext d
  apply Fin.ext
  match d with
  | ⟨0, _⟩ => show win0_0.index t (0 : Fin 2) * 2000 + 1 * a.val = r.val; omega
  | ⟨1, _⟩ => show win0_0.index t (1 : Fin 2) * 128 + 1 * k.val = k.val; omega

/-- Entry a of the first factor column's block at point t is entry 2000·t + a of the column. -/
theorem factorBlock0_1_apply (t : Fin cfg0.N) (a : Fin 2000) (r : Fin 100000) (hr : r.val = t.val * 2000 + a.val) :
    (iblk0 (F := Ideal) V c 1 t : Vec Ideal S2000x1 .f32) (ix2 a (0 : Fin 1))
      = (V c main_v22 : S100000x1.Idx → Elt Ideal .f32) (ix2 r (0 : Fin 1)) := by
  obtain ⟨-, -, e0, e1, -⟩ := blockIndices0 t
  unfold iblk0
  rw [View.read_apply]
  show V c main_v22 _ = V c main_v22 _
  refine congrArg _ ?_
  funext d
  apply Fin.ext
  match d with
  | ⟨0, _⟩ => show win0_1.index t (0 : Fin 2) * 2000 + 1 * a.val = r.val; omega
  | ⟨1, _⟩ => show win0_1.index t (1 : Fin 2) * 1 + 1 * 0 = 0; omega

/-- Entry a of the second factor column's block at point t is entry 2000·t + a of the column. -/
theorem factorBlock0_2_apply (t : Fin cfg0.N) (a : Fin 2000) (r : Fin 100000) (hr : r.val = t.val * 2000 + a.val) :
    (iblk0 (F := Ideal) V c 2 t : Vec Ideal S2000x1 .f32) (ix2 a (0 : Fin 1))
      = (V c main_v23 : S100000x1.Idx → Elt Ideal .f32) (ix2 r (0 : Fin 1)) := by
  obtain ⟨-, -, -, -, e0, e1, -⟩ := blockIndices0 t
  unfold iblk0
  rw [View.read_apply]
  show V c main_v23 _ = V c main_v23 _
  refine congrArg _ ?_
  funext d
  apply Fin.ext
  match d with
  | ⟨0, _⟩ => show win0_2.index t (0 : Fin 2) * 2000 + 1 * a.val = r.val; omega
  | ⟨1, _⟩ => show win0_2.index t (1 : Fin 2) * 1 + 1 * 0 = 0; omega

/-- The first matrix's block at every point is the matrix. -/
theorem weightBlock0_3_apply (t : Fin cfg0.N) (k b : Fin 128) :
    (iblk0 (F := Ideal) V c 3 t : Vec Ideal S128x128 .f32) (ix2 k b)
      = (V c main_arg2 : S128x128.Idx → Elt Ideal .f32) (ix2 k b) := by
  obtain ⟨-, -, -, -, -, -, e0, e1, -⟩ := blockIndices0 t
  unfold iblk0
  rw [View.read_apply]
  show V c main_arg2 _ = V c main_arg2 _
  refine congrArg _ ?_
  funext d
  apply Fin.ext
  match d with
  | ⟨0, _⟩ => show win0_3.index t (0 : Fin 2) * 128 + 1 * k.val = k.val; omega
  | ⟨1, _⟩ => show win0_3.index t (1 : Fin 2) * 128 + 1 * b.val = b.val; omega

/-- The second matrix's block at every point is the matrix. -/
theorem weightBlock0_4_apply (t : Fin cfg0.N) (k b : Fin 128) :
    (iblk0 (F := Ideal) V c 4 t : Vec Ideal S128x128 .f32) (ix2 k b)
      = (V c main_arg4 : S128x128.Idx → Elt Ideal .f32) (ix2 k b) := by
  obtain ⟨-, -, -, -, -, -, -, -, e0, e1, -⟩ := blockIndices0 t
  unfold iblk0
  rw [View.read_apply]
  show V c main_arg4 _ = V c main_arg4 _
  refine congrArg _ ?_
  funext d
  apply Fin.ext
  match d with
  | ⟨0, _⟩ => show win0_4.index t (0 : Fin 2) * 128 + 1 * k.val = k.val; omega
  | ⟨1, _⟩ => show win0_4.index t (1 : Fin 2) * 128 + 1 * b.val = b.val; omega

/-! ## What the body computes on one block of rows -/

/-- The first result on a block of rows: if the block operands are rows `row a` of the table and of the factor
    column, and the matrix whole, the body's value at (a, q) is the whole-table formula at (row a, q). -/
theorem scaledDot0_5_point (X : FVec Ideal S100000x128 .f32) (S : FVec Ideal S100000x1 .f32) (W : FVec Ideal S128x128 .f32)
    (x0 : Vec Ideal S2000x128 .f32) (x1 : Vec Ideal S2000x1 .f32) (w : Vec Ideal S128x128 .f32)
    (row : Fin 2000 → Fin 100000)
    (h0 : ∀ a k, x0 (ix2 a k) = X (ix2 (row a) k))
    (h1 : ∀ a, x1 (ix2 a (0 : Fin 1)) = S (ix2 (row a) (0 : Fin 1)))
    (hw : ∀ k b, w (ix2 k b) = W (ix2 k b))
    (j : S2000x128.Idx) (i : S100000x128.Idx)
    (hi0 : (i 0).val = (row (j 0)).val) (hi1 : (i 1).val = (j 1).val) :
    k0_pay1 x0 x1 w j = Cert.Spec.scaledDotP (F := Ideal) X S W i := by
  unfold k0_pay1 Cert.Spec.scaledDotP
  exact Cert.LibGcnBlocks.scaledDot_block (M := 100000) (m := 2000) (K := 128) (N := 128) (by decide) none none
    X S W x0 x1 w row h0 h1 hw _ _ _ _ j i hi0 hi1

/-- The second result on a block of rows: the same formula over the second factor column and the second matrix. -/
theorem scaledDot0_6_point (X : FVec Ideal S100000x128 .f32) (S : FVec Ideal S100000x1 .f32) (W : FVec Ideal S128x128 .f32)
    (x0 : Vec Ideal S2000x128 .f32) (x2 : Vec Ideal S2000x1 .f32) (w : Vec Ideal S128x128 .f32)
    (row : Fin 2000 → Fin 100000)
    (h0 : ∀ a k, x0 (ix2 a k) = X (ix2 (row a) k))
    (h2 : ∀ a, x2 (ix2 a (0 : Fin 1)) = S (ix2 (row a) (0 : Fin 1)))
    (hw : ∀ k b, w (ix2 k b) = W (ix2 k b))
    (j : S2000x128.Idx) (i : S100000x128.Idx)
    (hi0 : (i 0).val = (row (j 0)).val) (hi1 : (i 1).val = (j 1).val) :
    k0_pay2 x0 x2 w j = Cert.Spec.scaledDotP (F := Ideal) X S W i := by
  unfold k0_pay2 Cert.Spec.scaledDotP
  exact Cert.LibGcnBlocks.scaledDot_block (M := 100000) (m := 2000) (K := 128) (N := 128) (by decide) none none
    X S W x0 x2 w row h0 h2 hw _ _ _ _ j i hi0 hi1

/-! ## What each point writes back -/

/-- Point t writes rows 2000·t … 2000·t + 1999 of the first whole-table product into the first result. -/
theorem flushed0_5_eq (t : Fin cfg0.N) :
    (dat0 (F := Ideal) V c).flushed 5 t = ((cfg0.win 5).blk t).view.read (Elt Ideal)
      (Cert.Spec.scaledDotP (F := Ideal) (V c main_arg0) (V c main_v22) (V c main_arg2)) := by
  show (cfg0.win 5).cut (grid0.coords t) ((dat0 (F := Ideal) V c).after 5 t) = _
  rw [after0_5]
  unfold out0_5
  rw [View.canon_unit_zero zeroOffsets0]
  simp only [View.ld_unit_zero (S := S2000x128) zeroOffsets0, View.ld_unit_zero (S := S2000x1) zeroOffsets0,
    View.ld_unit_zero (S := S128x128) zeroOffsets0]
  funext j
  have ht : t.val < 50 := points0_lt t
  show k0_pay1 (iblk0 V c 0 t) (iblk0 V c 1 t) (iblk0 V c 3 t) j
    = Cert.Spec.scaledDotP (F := Ideal) (V c main_arg0) (V c main_v22) (V c main_arg2) (((cfg0.win 5).blk t).view.emb j)
  obtain ⟨-, -, -, -, -, -, -, -, -, -, e0, e1, -⟩ := blockIndices0 t
  refine scaledDot0_5_point (V c main_arg0) (V c main_v22) (V c main_arg2) _ _ _
    (fun a => ⟨t.val * 2000 + a.val, by have := a.isLt; omega⟩)
    (fun a k => tableBlock0_apply V c t a k _ rfl) (fun a => factorBlock0_1_apply V c t a _ rfl)
    (fun k b => weightBlock0_3_apply V c t k b) j _ ?_ ?_
  · show win0_5.index t (0 : Fin 2) * 2000 + 1 * (j 0).val = t.val * 2000 + (j 0).val; omega
  · show win0_5.index t (1 : Fin 2) * 128 + 1 * (j 1).val = (j 1).val; omega

/-- Point t writes rows 2000·t … 2000·t + 1999 of the second whole-table product into the second result. -/
theorem flushed0_6_eq (t : Fin cfg0.N) :
    (dat0 (F := Ideal) V c).flushed 6 t = ((cfg0.win 6).blk t).view.read (Elt Ideal)
      (Cert.Spec.scaledDotP (F := Ideal) (V c main_arg0) (V c main_v23) (V c main_arg4)) := by
  show (cfg0.win 6).cut (grid0.coords t) ((dat0 (F := Ideal) V c).after 6 t) = _
  rw [after0_6]
  unfold out0_6
  rw [View.canon_unit_zero zeroOffsets0]
  simp only [View.ld_unit_zero (S := S2000x128) zeroOffsets0, View.ld_unit_zero (S := S2000x1) zeroOffsets0,
    View.ld_unit_zero (S := S128x128) zeroOffsets0]
  funext j
  have ht : t.val < 50 := points0_lt t
  show k0_pay2 (iblk0 V c 0 t) (iblk0 V c 2 t) (iblk0 V c 4 t) j
    = Cert.Spec.scaledDotP (F := Ideal) (V c main_arg0) (V c main_v23) (V c main_arg4) (((cfg0.win 6).blk t).view.emb j)
  obtain ⟨-, -, -, -, -, -, -, -, -, -, -, -, e0, e1⟩ := blockIndices0 t
  refine scaledDot0_6_point (V c main_arg0) (V c main_v23) (V c main_arg4) _ _ _
    (fun a => ⟨t.val * 2000 + a.val, by have := a.isLt; omega⟩)
    (fun a k => tableBlock0_apply V c t a k _ rfl) (fun a => factorBlock0_2_apply V c t a _ rfl)
    (fun k b => weightBlock0_4_apply V c t k b) j _ ?_ ?_
  · show win0_6.index t (0 : Fin 2) * 2000 + 1 * (j 0).val = t.val * 2000 + (j 0).val; omega
  · show win0_6.index t (1 : Fin 2) * 128 + 1 * (j 1).val = (j 1).val; omega

/-! ## The blocks cover the rows -/

/-- An entry of the first result lies in point t's block iff each coordinate lies in the block's range on its axis. -/
theorem mem_rows0_5 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v24_0).slice (win0_5.rect t)).set ↔ _
  rw [View.set_slice_whole, Rect.mem_set_unit]
  exact Iff.rfl

/-- The same for the second result. -/
theorem mem_rows0_6 (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v24_1).slice (win0_6.rect t)).set ↔ _
  rw [View.set_slice_whole, Rect.mem_set_unit]
  exact Iff.rfl

/-- Row r of the first result is written by point r / 2000. -/
theorem rowsCover0_5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 2000, by rw [show cfg0.N = 50 from N_0]; omega⟩
  have htv : t.val = (i 0).val / 2000 := rfl
  obtain ⟨-, -, -, -, -, -, -, -, -, -, e0, e1, -⟩ := blockIndices0 t
  refine ⟨t, flush0_5 t, ?_⟩
  rw [mem_rows0_5]
  intro a
  match a with
  | ⟨0, _⟩ =>
    show win0_5.index t (0 : Fin 2) * 2000 ≤ (i 0).val ∧ (i 0).val < win0_5.index t (0 : Fin 2) * 2000 + 2000
    rw [e0, htv]; omega
  | ⟨1, _⟩ =>
    show win0_5.index t (1 : Fin 2) * 128 ≤ (i 1).val ∧ (i 1).val < win0_5.index t (1 : Fin 2) * 128 + 128
    rw [e1]; omega

/-- Row r of the second result is written by point r / 2000. -/
theorem rowsCover0_6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 2000, by rw [show cfg0.N = 50 from N_0]; omega⟩
  have htv : t.val = (i 0).val / 2000 := rfl
  obtain ⟨-, -, -, -, -, -, -, -, -, -, -, -, e0, e1⟩ := blockIndices0 t
  refine ⟨t, flush0_6 t, ?_⟩
  rw [mem_rows0_6]
  intro a
  match a with
  | ⟨0, _⟩ =>
    show win0_6.index t (0 : Fin 2) * 2000 ≤ (i 0).val ∧ (i 0).val < win0_6.index t (0 : Fin 2) * 2000 + 2000
    rw [e0, htv]; omega
  | ⟨1, _⟩ =>
    show win0_6.index t (1 : Fin 2) * 128 ≤ (i 1).val ∧ (i 1).val < win0_6.index t (1 : Fin 2) * 128 + 128
    rw [e1]; omega

/-! ## The result tables after the last point -/

/-- The first result ends holding the table scaled by the first factor column, times the first matrix. -/
theorem arr0_5 : (dat0 (F := Ideal) V c).arrAt 5 cfg0.N
    = Cert.Spec.scaledDotP (F := Ideal) (V c main_arg0) (V c main_v22) (V c main_arg2) :=
  (dat0 (F := Ideal) V c).arrAt_eq_of_cover 5 _ (fun t _ => flushed0_5_eq V c t) rowsCover0_5

/-- The second result ends holding the table scaled by the second factor column, times the second matrix. -/
theorem arr0_6 : (dat0 (F := Ideal) V c).arrAt 6 cfg0.N
    = Cert.Spec.scaledDotP (F := Ideal) (V c main_arg0) (V c main_v23) (V c main_arg4) :=
  (dat0 (F := Ideal) V c).arrAt_eq_of_cover 6 _ (fun t _ => flushed0_6_eq V c t) rowsCover0_6

end Cert.KernelIdeal.Regions

end
-- ==== Proof.ChainEntry.lean ====
/-
  The kernel program's buffers up to the first region's exit, as the reference's own stages.

  The kernel program runs the same host operations as the reference between its tiled regions: the degree counts (a
  scatter-add of ones), their lower clip at one and inverse square root, the wrap of negative indices, the row gathers
  and the row scatter-adds. So every buffer it holds is some stage of the reference, a function of the argument
  arrays. This module reads the buffers at the first region's entry — each argument as launched, the two per-row
  factors as the reference's columns (a reshape of a vector to a column IS its broadcast along axis 0), the two
  target-side factors — and, with the first region's value (rows scaled by the factor, times the weights), the two
  projected tables at its exit.
-/
import proofs.«117665_j24180665876677_2_alg».proof.Proof.Gen.KernelIdeal.Frame
import proofs.«117665_j24180665876677_2_alg».proof.Proof.Gen.ReferenceIdeal.Read
import proofs.«117665_j24180665876677_2_alg».proof.Proof.Spec
import proofs.«117665_j24180665876677_2_alg».proof.Proof.LibCastBroadcast
import proofs.«117665_j24180665876677_2_alg».proof.Proof.Region0

set_option maxRecDepth 16384
set_option maxHeartbeats 4000000

noncomputable section

namespace Cert.KernelIdeal.Chain

open Cert.KernelIdeal Cert.KernelIdeal.Gen Idealize.ShloMosaic Idealize.ShloMosaic.TcCoe Idealize.SL.Sem
open Idealize.ShloMosaic.StableHlo Cert.ReferenceIdeal.Read

variable (m : (ℓ : Loc nD τ sig) → Buf (Elt Ideal) ℓ) (ρ : Dev nD → PrngReg) (c : Dev nD)

/-- The lower clip of the cites-source degrees: its three operations over plain references. -/
abbrev clipOps0 : List (HloOp τ sig (Elt Ideal)) :=
  [ StableHlo.unary main_cst_1 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.binary main_call0_v1 main_v3 main_v4 ((fun (a b : FVec Ideal S100000 .f32) => maximumf a b) : (⟨S100000, .f32⟩ : BufTy).Contents (Elt Ideal) → (⟨S100000, .f32⟩ : BufTy).Contents (Elt Ideal) → (⟨S100000, .f32⟩ : BufTy).Contents (Elt Ideal)) ]
/-- The lower clip of the cites-target degrees. -/
abbrev clipOps1 : List (HloOp τ sig (Elt Ideal)) :=
  [ StableHlo.unary main_cst_3 main_call1_v0 (id : (⟨S_, .f32⟩ : BufTy).Contents (Elt Ideal) → (⟨S_, .f32⟩ : BufTy).Contents (Elt Ideal)),
    StableHlo.unary main_call1_v0 main_call1_v1 (broadcastInDim S100000 ![] bcast_S_S100000 : (⟨S_, .f32⟩ : BufTy).Contents (Elt Ideal) → (⟨S100000, .f32⟩ : BufTy).Contents (Elt Ideal)),
    StableHlo.binary main_call1_v1 main_v7 main_v8 ((fun (a b : FVec Ideal S100000 .f32) => maximumf a b) : (⟨S100000, .f32⟩ : BufTy).Contents (Elt Ideal) → (⟨S100000, .f32⟩ : BufTy).Contents (Elt Ideal) → (⟨S100000, .f32⟩ : BufTy).Contents (Elt Ideal)) ]
/-- The lower clip of the isin-source degrees. -/
abbrev clipOps2 : List (HloOp τ sig (Elt Ideal)) :=
  [ StableHlo.unary main_cst_6 main_call2_v0 (id : (⟨S_, .f32⟩ : BufTy).Contents (Elt Ideal) → (⟨S_, .f32⟩ : BufTy).Contents (Elt Ideal)),
    StableHlo.unary main_call2_v0 main_call2_v1 (broadcastInDim S100000 ![] bcast_S_S100000 : (⟨S_, .f32⟩ : BufTy).Contents (Elt Ideal) → (⟨S100000, .f32⟩ : BufTy).Contents (Elt Ideal)),
    StableHlo.binary main_call2_v1 main_v14 main_v15 ((fun (a b : FVec Ideal S100000 .f32) => maximumf a b) : (⟨S100000, .f32⟩ : BufTy).Contents (Elt Ideal) → (⟨S100000, .f32⟩ : BufTy).Contents (Elt Ideal) → (⟨S100000, .f32⟩ : BufTy).Contents (Elt Ideal)) ]
/-- The lower clip of the isin-target degrees. -/
abbrev clipOps3 : List (HloOp τ sig (Elt Ideal)) :=
  [ StableHlo.unary main_cst_8 main_call3_v0 (id : (⟨S_, .f32⟩ : BufTy).Contents (Elt Ideal) → (⟨S_, .f32⟩ : BufTy).Contents (Elt Ideal)),
    StableHlo.unary main_call3_v0 main_call3_v1 (broadcastInDim S10000 ![] bcast_S_S10000 : (⟨S_, .f32⟩ : BufTy).Contents (Elt Ideal) → (⟨S10000, .f32⟩ : BufTy).Contents (Elt Ideal)),
    StableHlo.binary main_call3_v1 main_v18 main_v19 ((fun (a b : FVec Ideal S10000 .f32) => maximumf a b) : (⟨S10000, .f32⟩ : BufTy).Contents (Elt Ideal) → (⟨S10000, .f32⟩ : BufTy).Contents (Elt Ideal) → (⟨S10000, .f32⟩ : BufTy).Contents (Elt Ideal)) ]
/-- The lower clip of the summed edge weights. -/
abbrev clipOps4 : List (HloOp τ sig (Elt Ideal)) :=
  [ StableHlo.unary main_cst_15 main_call4_v0 (id : (⟨S_, .f32⟩ : BufTy).Contents (Elt Ideal) → (⟨S_, .f32⟩ : BufTy).Contents (Elt Ideal)),
    StableHlo.unary main_call4_v0 main_call4_v1 (broadcastInDim S10000 ![] bcast_S_S10000 : (⟨S_, .f32⟩ : BufTy).Contents (Elt Ideal) → (⟨S10000, .f32⟩ : BufTy).Contents (Elt Ideal)),
    StableHlo.binary main_call4_v1 main_v53 main_v54 ((fun (a b : FVec Ideal S10000 .f32) => maximumf a b) : (⟨S10000, .f32⟩ : BufTy).Contents (Elt Ideal) → (⟨S10000, .f32⟩ : BufTy).Contents (Elt Ideal) → (⟨S10000, .f32⟩ : BufTy).Contents (Elt Ideal)) ]

/-! The program spells each clip through typed references, whose contents pass through a transport along an equation
    of buffer types that holds by computation; over a bound variable the transport is the identity, so each stretch is
    its plain spelling. -/
theorem hostOps0_1_eq : (hostOps0_1 : List (HloOp τ sig (Elt Ideal))) = clipOps0 := rfl
theorem hostOps0_3_eq : (hostOps0_3 : List (HloOp τ sig (Elt Ideal))) = clipOps1 := rfl
theorem hostOps0_5_eq : (hostOps0_5 : List (HloOp τ sig (Elt Ideal))) = clipOps2 := rfl
theorem hostOps0_7_eq : (hostOps0_7 : List (HloOp τ sig (Elt Ideal))) = clipOps3 := rfl
theorem hostOps3_1_eq : (hostOps3_1 : List (HloOp τ sig (Elt Ideal))) = clipOps4 := rfl

/-- Reads a buffer at the first region's entry: the nine host stretches before it, folded from the launch memory. -/
macro "host0" : tactic => `(tactic| (
  dsimp only [W9, W8, W7, W6, W5, W4, W3, W2, W1]
  rw [hostOps0_1_eq, hostOps0_3_eq, hostOps0_5_eq, hostOps0_7_eq]
  simp only [hostOps0, clipOps0, hostOps0_2, clipOps1, hostOps0_4, clipOps2, hostOps0_6, clipOps3, hostOps0_8]
  after_results))

/-- Reads a buffer after the stretch between the first and the second region. -/
macro "host1" : tactic => `(tactic| (dsimp only [W11]; simp only [hostOps1]; after_results))
/-- Reads a buffer after the stretch between the second and the third region. -/
macro "host2" : tactic => `(tactic| (dsimp only [W13]; simp only [hostOps2]; after_results))
/-- Reads a buffer after the three stretches between the third and the fourth region. -/
macro "host3" : tactic => `(tactic| (dsimp only [W17, W16, W15]; rw [hostOps3_1_eq]; simp only [hostOps3, clipOps4, hostOps3_2]; after_results))
/-- Reads a buffer after the stretch between the fourth and the fifth region. -/
macro "host4" : tactic => `(tactic| (dsimp only [W19]; simp only [hostOps4]; after_results))

/-! ## At the first region's entry -/
theorem a9_0 : W9 (F := Ideal) m ρ c (Proc.devRef .tc main_arg0) = m ((c : Thread nD τ).loc main_arg0) := by host0
theorem a9_2 : W9 (F := Ideal) m ρ c (Proc.devRef .tc main_arg2) = m ((c : Thread nD τ).loc main_arg2) := by host0
theorem a9_3 : W9 (F := Ideal) m ρ c (Proc.devRef .tc main_arg3) = m ((c : Thread nD τ).loc main_arg3) := by host0
theorem a9_4 : W9 (F := Ideal) m ρ c (Proc.devRef .tc main_arg4) = m ((c : Thread nD τ).loc main_arg4) := by host0
theorem a9_5 : W9 (F := Ideal) m ρ c (Proc.devRef .tc main_arg5) = m ((c : Thread nD τ).loc main_arg5) := by host0
theorem a9_6 : W9 (F := Ideal) m ρ c (Proc.devRef .tc main_arg6) = m ((c : Thread nD τ).loc main_arg6) := by host0
theorem a9_7 : W9 (F := Ideal) m ρ c (Proc.devRef .tc main_arg7) = m ((c : Thread nD τ).loc main_arg7) := by host0
theorem a9_8 : W9 (F := Ideal) m ρ c (Proc.devRef .tc main_arg8) = m ((c : Thread nD τ).loc main_arg8) := by host0
theorem a9_9 : W9 (F := Ideal) m ρ c (Proc.devRef .tc main_arg9) = m ((c : Thread nD τ).loc main_arg9) := by host0
theorem a9_10 : W9 (F := Ideal) m ρ c (Proc.devRef .tc main_arg10) = m ((c : Thread nD τ).loc main_arg10) := by host0
theorem a9_11 : W9 (F := Ideal) m ρ c (Proc.devRef .tc main_arg11) = m ((c : Thread nD τ).loc main_arg11) := by host0
theorem a9_12 : W9 (F := Ideal) m ρ c (Proc.devRef .tc main_arg12) = m ((c : Thread nD τ).loc main_arg12) := by host0
theorem a9_13 : W9 (F := Ideal) m ρ c (Proc.devRef .tc main_arg13) = m ((c : Thread nD τ).loc main_arg13) := by host0
theorem a9_14 : W9 (F := Ideal) m ρ c (Proc.devRef .tc main_arg14) = m ((c : Thread nD τ).loc main_arg14) := by host0

theorem v22_9 : W9 (F := Ideal) m ρ c (Proc.devRef .tc main_v22) = val_main_v10 (F := Ideal) (m ((c : Thread nD τ).loc main_arg9)) := by
  refine Eq.trans (b := shapeCast S100000x1 (val_main_v9 (F := Ideal) (m ((c : Thread nD τ).loc main_arg9))) shapeCasts_S100000_S100000x1) ?_ ?_
  · host0; rfl
  · exact Cert.LibCastBroadcast.colCast_eq (by decide) _ _ _

theorem v23_9 : W9 (F := Ideal) m ρ c (Proc.devRef .tc main_v23) = val_main_v46 (F := Ideal) (m ((c : Thread nD τ).loc main_arg11)) := by
  refine Eq.trans (b := shapeCast S100000x1 (val_main_v45 (F := Ideal) (m ((c : Thread nD τ).loc main_arg11))) shapeCasts_S100000_S100000x1) ?_ ?_
  · host0; rfl
  · exact Cert.LibCastBroadcast.colCast_eq (by decide) _ _ _

theorem v10_9 : W9 (F := Ideal) m ρ c (Proc.devRef .tc main_v10) = val_main_v24 (F := Ideal) (m ((c : Thread nD τ).loc main_arg10)) := by
  host0; rfl

theorem v21_9 : W9 (F := Ideal) m ρ c (Proc.devRef .tc main_v21) = val_main_v60 (F := Ideal) (m ((c : Thread nD τ).loc main_arg12)) := by
  host0; rfl

/-! ## After the first region -/

theorem v24_0_10 : W10 (F := Ideal) m ρ c (Proc.devRef .tc main_v24_0)
    = val_main_v13 (F := Ideal) (m ((c : Thread nD τ).loc main_arg0)) (m ((c : Thread nD τ).loc main_arg2)) (m ((c : Thread nD τ).loc main_arg9)) := by
  refine (W10_arr m ρ c 5).trans ?_
  rw [Cert.KernelIdeal.Regions.arr0_5]
  show Cert.Spec.scaledDotP (F := Ideal) (W9 m ρ c (Proc.devRef .tc main_arg0)) (W9 m ρ c (Proc.devRef .tc main_v22)) (W9 m ρ c (Proc.devRef .tc main_arg2)) = _
  rw [a9_0, v22_9, a9_2]
  rfl

theorem v24_1_10 : W10 (F := Ideal) m ρ c (Proc.devRef .tc main_v24_1)
    = val_main_v49 (F := Ideal) (m ((c : Thread nD τ).loc main_arg0)) (m ((c : Thread nD τ).loc main_arg4)) (m ((c : Thread nD τ).loc main_arg11)) := by
  refine (W10_arr m ρ c 6).trans ?_
  rw [Cert.KernelIdeal.Regions.arr0_6]
  show Cert.Spec.scaledDotP (F := Ideal) (W9 m ρ c (Proc.devRef .tc main_arg0)) (W9 m ρ c (Proc.devRef .tc main_v23)) (W9 m ρ c (Proc.devRef .tc main_arg4)) = _
  rw [a9_0, v23_9, a9_4]
  rfl
theorem a10_3 : W10 (F := Ideal) m ρ c (Proc.devRef .tc main_arg3) = m ((c : Thread nD τ).loc main_arg3) :=
  (W10_of_ne m ρ c main_arg3 (by decide)).trans (a9_3 m ρ c)
theorem a10_5 : W10 (F := Ideal) m ρ c (Proc.devRef .tc main_arg5) = m ((c : Thread nD τ).loc main_arg5) :=
  (W10_of_ne m ρ c main_arg5 (by decide)).trans (a9_5 m ρ c)
theorem a10_6 : W10 (F := Ideal) m ρ c (Proc.devRef .tc main_arg6) = m ((c : Thread nD τ).loc main_arg6) :=
  (W10_of_ne m ρ c main_arg6 (by decide)).trans (a9_6 m ρ c)
theorem a10_7 : W10 (F := Ideal) m ρ c (Proc.devRef .tc main_arg7) = m ((c : Thread nD τ).loc main_arg7) :=
  (W10_of_ne m ρ c main_arg7 (by decide)).trans (a9_7 m ρ c)
theorem a10_8 : W10 (F := Ideal) m ρ c (Proc.devRef .tc main_arg8) = m ((c : Thread nD τ).loc main_arg8) :=
  (W10_of_ne m ρ c main_arg8 (by decide)).trans (a9_8 m ρ c)
theorem a10_9 : W10 (F := Ideal) m ρ c (Proc.devRef .tc main_arg9) = m ((c : Thread nD τ).loc main_arg9) :=
  (W10_of_ne m ρ c main_arg9 (by decide)).trans (a9_9 m ρ c)
theorem a10_10 : W10 (F := Ideal) m ρ c (Proc.devRef .tc main_arg10) = m ((c : Thread nD τ).loc main_arg10) :=
  (W10_of_ne m ρ c main_arg10 (by decide)).trans (a9_10 m ρ c)
theorem a10_11 : W10 (F := Ideal) m ρ c (Proc.devRef .tc main_arg11) = m ((c : Thread nD τ).loc main_arg11) :=
  (W10_of_ne m ρ c main_arg11 (by decide)).trans (a9_11 m ρ c)
theorem a10_12 : W10 (F := Ideal) m ρ c (Proc.devRef .tc main_arg12) = m ((c : Thread nD τ).loc main_arg12) :=
  (W10_of_ne m ρ c main_arg12 (by decide)).trans (a9_12 m ρ c)
theorem a10_13 : W10 (F := Ideal) m ρ c (Proc.devRef .tc main_arg13) = m ((c : Thread nD τ).loc main_arg13) :=
  (W10_of_ne m ρ c main_arg13 (by decide)).trans (a9_13 m ρ c)
theorem a10_14 : W10 (F := Ideal) m ρ c (Proc.devRef .tc main_arg14) = m ((c : Thread nD τ).loc main_arg14) :=
  (W10_of_ne m ρ c main_arg14 (by decide)).trans (a9_14 m ρ c)
theorem v10_10 : W10 (F := Ideal) m ρ c (Proc.devRef .tc main_v10) = val_main_v24 (F := Ideal) (m ((c : Thread nD τ).loc main_arg10)) :=
  (W10_of_ne m ρ c main_v10 (by decide)).trans (v10_9 m ρ c)
theorem v21_10 : W10 (F := Ideal) m ρ c (Proc.devRef .tc main_v21) = val_main_v60 (F := Ideal) (m ((c : Thread nD τ).loc main_arg12)) :=
  (W10_of_ne m ρ c main_v21 (by decide)).trans (v21_9 m ρ c)

end Cert.KernelIdeal.Chain

end
-- ==== Proof.LeakyLaw.lean ====
/-
  The leaky rectifier on the extended reals, and two rectifiers folded into one.

  The rectifier with slope s is the map  y ↦ y  where 0 ≤ y  and  y ↦ s · y  where y < 0. For a positive real slope d,
  rectifying twice with slope d is rectifying once with slope d · d, at EVERY extended real: where 0 ≤ y both sides
  are y; where y < 0 the product d · y is still below zero (d > 0; at y = −∞ the product is −∞), so the second
  rectifier multiplies again, and d · (d · y) = (d · d) · y because the product of extended reals is associative.
  Nothing is assumed finite.

  Two slopes occur. The 32-bit float nearest 0.01 has the word 0x3C23D70A: sign 0, exponent field 120, fraction
  field 2348810, that is (2^23 + 2348810) · 2^(120 − 127 − 23) = 10737418 / 2^30 = 5368709 / 2^29, called `slope`
  here. The constant named "neg_slope_sq" denotes 28823036326681 / 2^58, which is exactly slope · slope
  (5368709² = 28823036326681, (2^29)² = 2^58).

  Last, the two spellings of the rectifier over a whole vector read at one index: the one that compares against a
  broadcast scalar zero and multiplies by the broadcast named constant, and the one that compares against and multiplies
  by rank-0 constants broadcast to the vector's shape.
-/
import proofs.«117665_j24180665876677_2_alg».proof.KernelIdeal
import proofs.«117665_j24180665876677_2_alg».proof.Proof.LibHostReads
import Idealize.ShloMosaic.PureOps.IdealRules
import Idealize.ShloMosaic.PureOps.Ideal.Laws
import Idealize.ShloMosaic.Lib.ValueIdx

noncomputable section

namespace Cert.LeakyLaw

open Idealize.ShloMosaic Idealize.ShloMosaic.ValueIdx

/-! ## The rectifier and the folding law -/

/-- The rectifier with slope `s`: the identity on the nonnegative extended reals, the product with `s` below zero. -/
def rect (s y : EReal) : EReal := if 0 ≤ y then y else s * y

/-- Two rectifiers with one positive real slope are one rectifier with the squared slope, at every extended real. -/
theorem rect_rect (d : ℝ) (hd : 0 < d) (y : EReal) :
    rect (d : EReal) (rect (d : EReal) y) = rect ((d * d : ℝ) : EReal) y := by
  unfold rect
  by_cases h : 0 ≤ y
  · rw [if_pos h, if_pos h, if_pos h]
  · have hneg : (d : EReal) * y < 0 := EReal.mul_neg_iff.mpr (Or.inl ⟨EReal.coe_pos.mpr hd, not_le.mp h⟩)
    rw [if_neg h, if_neg h, if_neg (not_le.mpr hneg), EReal.coe_mul, mul_assoc]

/-! ## The two slopes -/

/-- The 32-bit float nearest 0.01, as a real: 5368709 / 2^29. -/
def slope : ℝ := 5368709 / 536870912

theorem slope_pos : 0 < slope := by unfold slope; norm_num

/-- The word 0x3C23D70A denotes `slope`. -/
theorem ofBits_slope : Ideal.ofBits .f32 0x3C23D70A#32 = ((slope : ℝ) : EReal) := by
  unfold slope
  simp [Ideal.ofBits, Ideal.ieee, -EReal.coe_mul]; norm_num

/-- The constant named "neg_slope_sq" denotes the exact square of `slope`. -/
theorem named_slope_sq :
    Named.named (F := Ideal) Cert.KernelIdeal.κ "neg_slope_sq" (φ := .f32) 0x38D1B717#32 = ((slope * slope : ℝ) : EReal) :=
  (IdealRules.named_const.ideal_named_scalar Cert.KernelIdeal.κ "neg_slope_sq" (φ := .f32) 0x38D1B717#32
      ((28823036326681 / 288230376151711744 : ℝ) : EReal) rfl).trans
    (congrArg (fun r : ℝ => (r : EReal)) (by unfold slope; norm_num))

/-! ## A select on "is at least zero" is the `if` -/

/-- Choosing by the comparison `y ≥ 0` against the zero word is the `if` on `0 ≤ y`. -/
theorem select_oge_zero (y a b : EReal) :
    Scalar.select (FloatOps.cmpf (F := Ideal) (φ := .f32) .oge y (Ideal.ofBits .f32 0x00000000#32)) a b
      = if 0 ≤ y then a else b := by
  rw [Ideal.cmpf_def, Ideal.ofBits_zero_f32]
  unfold Ideal.cmp Scalar.select
  by_cases h : (0 : EReal) ≤ y <;> simp [h]

/-! ## The two spellings over a vector, read at an index -/

/-- The rectifier that compares against a broadcast scalar zero and multiplies by the broadcast constant named
    "neg_slope_sq", at an index: the rectifier with slope `slope · slope` of the element. -/
theorem rect_named_apply {T : Shape} (y : FVec Ideal T .f32) (j : T.Idx) :
    select (cmpf .oge y (broadcast T (Scalar.ofBits (F := Ideal) .f32 0x00000000#32))) y
        (mulf (broadcast T (Named.named (F := Ideal) Cert.KernelIdeal.κ "neg_slope_sq" (φ := .f32) 0x38D1B717#32)) y) j
      = rect ((slope * slope : ℝ) : EReal) (y j) := by
  rw [select_apply, cmpf_apply, mulf_apply, broadcast_apply, broadcast_apply, named_slope_sq]
  exact select_oge_zero (y j) (y j) _

/-- The rectifier that compares against the rank-0 zero constant broadcast to the shape and multiplies by the rank-0
    constant 0x3C23D70A broadcast to the shape, at an index: the rectifier with slope `slope` of the element. -/
theorem rect_splat_apply {T : Shape} (hZ : (⟨0, ![]⟩ : Shape).BroadcastsInDim T ![]) (Y : FVec Ideal T .f32) (i : T.Idx) :
    select (cmpf .oge Y (broadcastInDim T ![] hZ (constant (F := Ideal) ⟨0, ![]⟩ .f32 0x00000000#32))) Y
        (mulf (broadcastInDim T ![] hZ (constant (F := Ideal) ⟨0, ![]⟩ .f32 0x3C23D70A#32)) Y) i
      = rect ((slope : ℝ) : EReal) (Y i) := by
  rw [select_apply, cmpf_apply, mulf_apply, Cert.LibHostReads.splat_apply, Cert.LibHostReads.splat_apply,
    constant_apply, constant_apply, ofBits_slope]
  exact select_oge_zero (Y i) (Y i) _

end Cert.LeakyLaw

end
-- ==== Proof.LibRowEpilogues.lean ====
/-
  Two row-wise epilogues read block by block, at the extended reals.

  A row-tiled kernel sees m consecutive rows of an M-row table at a time: block row a stands for table row `row a`.
  The two epilogues are

  • raw(r, q) · s(r) + b(q), the per-row factor s a column [M, 1] repeated along the columns, the bias b a row [1, N]
    repeated down the rows;
  • raw(r, q) + b(q).

  Each lemma says that what the block-side spelling (shape casts onto the same shape, the column and the row
  broadcast to the block's shape) computes at entry (a, q) of the block is what the whole-table spelling (the column
  and the row broadcast in dimensions to the table's shape) computes at entry (row a, q), given only that the block
  operands read the tables at those rows. Sums and products of extended reals are taken as they are: nothing is
  assumed finite. Generic in all extents (M must not be the unit extent, so that the column's row coordinate is read
  and not collapsed).
-/
import Idealize.ShloMosaic.Lib.KernelVsHost
import Idealize.ShloMosaic.Lib.ValueLayout
import Idealize.ShloMosaic.Lib.Pipeline.Value
import proofs.«117665_j24180665876677_2_alg».proof.Proof.LibUnitAxes
import proofs.«117665_j24180665876677_2_alg».proof.Proof.LibHostReads

noncomputable section

namespace Cert.LibRowEpilogues

open Idealize.ShloMosaic Idealize.ShloMosaic.ValueIdx

/-- `raw · s + b` on a block of rows, at (a, q), is the whole-table formula at (row a, q). -/
theorem scaleBias_block {M m N : Nat} (hM : M ≠ 1)
    (A : FVec Ideal ⟨2, ![M, N]⟩ .f32) (S : FVec Ideal ⟨2, ![M, 1]⟩ .f32) (B : FVec Ideal ⟨2, ![1, N]⟩ .f32)
    (x0 : FVec Ideal ⟨2, ![m, N]⟩ .f32) (x1 : FVec Ideal ⟨2, ![m, 1]⟩ .f32) (x2 : FVec Ideal ⟨2, ![1, N]⟩ .f32)
    (row : Fin m → Fin M)
    (h0 : ∀ a q, x0 (ix2 a q) = A (ix2 (row a) q))
    (h1 : ∀ a, x1 (ix2 a (0 : Fin 1)) = S (ix2 (row a) (0 : Fin 1)))
    (h2 : ∀ q, x2 (ix2 (0 : Fin 1) q) = B (ix2 (0 : Fin 1) q))
    (hc0 : (⟨2, ![m, N]⟩ : Shape).ShapeCasts ⟨2, ![m, N]⟩) (hc1 : (⟨2, ![m, 1]⟩ : Shape).ShapeCasts ⟨2, ![m, 1]⟩)
    (hc2 : (⟨2, ![1, N]⟩ : Shape).ShapeCasts ⟨2, ![1, N]⟩)
    (hb1 : (⟨2, ![m, 1]⟩ : Shape).Broadcasts ⟨2, ![m, N]⟩) (hb2 : (⟨2, ![1, N]⟩ : Shape).Broadcasts ⟨2, ![m, N]⟩)
    (hS : (⟨2, ![M, 1]⟩ : Shape).BroadcastsInDim ⟨2, ![M, N]⟩ ![0, 1])
    (hB : (⟨2, ![1, N]⟩ : Shape).BroadcastsInDim ⟨2, ![M, N]⟩ ![0, 1])
    (a : Fin m) (q : Fin N) :
    addf (mulf (shapeCast ⟨2, ![m, N]⟩ x0 hc0) (broadcastTo ⟨2, ![m, N]⟩ (shapeCast ⟨2, ![m, 1]⟩ x1 hc1) hb1))
        (broadcastTo ⟨2, ![m, N]⟩ (shapeCast ⟨2, ![1, N]⟩ x2 hc2) hb2) (ix2 a q)
      = addf (mulf A (broadcastInDim ⟨2, ![M, N]⟩ ![0, 1] hS S)) (broadcastInDim ⟨2, ![M, N]⟩ ![0, 1] hB B)
          (ix2 (row a) q) := by
  rw [addf_apply, addf_apply, mulf_apply, mulf_apply, shapeCast_self, shapeCast_self, shapeCast_self,
    LibUnitAxes.broadcastTo_a1_ab_apply, broadcastTo_1b_ab_apply, h0, h1, h2,
    LibHostReads.colBcast_apply hM, broadcastInDim_oneRow_apply]

/-- `raw + b` on a block of rows, at (a, q), is the whole-table formula at (row a, q). -/
theorem bias_block {M m N : Nat}
    (A : FVec Ideal ⟨2, ![M, N]⟩ .f32) (B : FVec Ideal ⟨2, ![1, N]⟩ .f32)
    (x0 : FVec Ideal ⟨2, ![m, N]⟩ .f32) (x2 : FVec Ideal ⟨2, ![1, N]⟩ .f32)
    (row : Fin m → Fin M)
    (h0 : ∀ a q, x0 (ix2 a q) = A (ix2 (row a) q))
    (h2 : ∀ q, x2 (ix2 (0 : Fin 1) q) = B (ix2 (0 : Fin 1) q))
    (hc0 : (⟨2, ![m, N]⟩ : Shape).ShapeCasts ⟨2, ![m, N]⟩) (hc2 : (⟨2, ![1, N]⟩ : Shape).ShapeCasts ⟨2, ![1, N]⟩)
    (hb2 : (⟨2, ![1, N]⟩ : Shape).Broadcasts ⟨2, ![m, N]⟩)
    (hB : (⟨2, ![1, N]⟩ : Shape).BroadcastsInDim ⟨2, ![M, N]⟩ ![0, 1])
    (a : Fin m) (q : Fin N) :
    addf (shapeCast ⟨2, ![m, N]⟩ x0 hc0) (broadcastTo ⟨2, ![m, N]⟩ (shapeCast ⟨2, ![1, N]⟩ x2 hc2) hb2) (ix2 a q)
      = addf A (broadcastInDim ⟨2, ![M, N]⟩ ![0, 1] hB B) (ix2 (row a) q) := by
  rw [addf_apply, addf_apply, shapeCast_self, shapeCast_self, broadcastTo_1b_ab_apply, h0, h2,
    broadcastInDim_oneRow_apply]

end Cert.LibRowEpilogues

end
-- ==== Proof.Region1.lean ====
/-
  The affine epilogue of the paper table followed by the rectifier applied twice, block by block.

  The table has 100000 rows and is visited 2000 rows at a time: point t of the grid holds rows 2000·t … 2000·t + 1999
  of the raw table and of the per-row factor, and the whole bias row. Entry (r, q) of the result depends on row r of
  the operands alone:  y = raw(r, q) · s(r) + b(q), then the leaky rectifier twice. The body rectifies ONCE, with the
  slope named "neg_slope_sq", which is the exact square of the rectifier's slope; two rectifiers with a positive slope
  are one rectifier with the squared slope at every extended real, so what each point writes back is its block of the
  whole-table formula, and the fifty blocks tile the table.
-/
import proofs.«117665_j24180665876677_2_alg».proof.Proof.Gen.KernelIdeal.Frame
import proofs.«117665_j24180665876677_2_alg».proof.Proof.Spec
import proofs.«117665_j24180665876677_2_alg».proof.Proof.LeakyLaw
import proofs.«117665_j24180665876677_2_alg».proof.Proof.LibRowEpilogues
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The zero offset of a whole-block access. -/
theorem zeroOff1 : (![0, 0] : Fin 2 → Nat) = fun _ => 0 := funext fun a => by fin_cases a <;> rfl

/-- The paper table's rectifier at an entry: the rectifier with the slope 5368709 / 2^29 of the entry. -/
theorem leakyP_apply (Y : FVec Ideal S100000x128 .f32) (i : S100000x128.Idx) :
    Cert.Spec.leakyP (F := Ideal) Y i = Cert.LeakyLaw.rect ((Cert.LeakyLaw.slope : ℝ) : EReal) (Y i) :=
  Cert.LeakyLaw.rect_splat_apply _ Y i

/-- Block q of the result: if the block operands hold rows 2000·q … of the raw table and of the per-row factor and
    the bias row, the body's value at (a, k) is the whole-table formula at (2000·q + a, k). -/
theorem affineLeaky2_block (A : FVec Ideal S100000x128 .f32) (S : FVec Ideal S100000x1 .f32) (B : FVec Ideal S1x128 .f32)
    (x0 : Vec Ideal S2000x128 .f32) (x1 : Vec Ideal S2000x1 .f32) (x2 : Vec Ideal S1x128 .f32) (q : Nat) (hq : q < 50)
    (h0 : ∀ (a : Fin 2000) (k : Fin 128), x0 (ix2 a k) = A (ix2 (⟨q * 2000 + a.val, by omega⟩ : Fin 100000) k))
    (h1 : ∀ a : Fin 2000, x1 (ix2 a (0 : Fin 1)) = S (ix2 (⟨q * 2000 + a.val, by omega⟩ : Fin 100000) (0 : Fin 1)))
    (h2 : ∀ k : Fin 128, x2 (ix2 (0 : Fin 1) k) = B (ix2 (0 : Fin 1) k))
    (j : S2000x128.Idx) (i : S100000x128.Idx)
    (hi0 : (i 0).val = q * 2000 + (j 0).val) (hi1 : (i 1).val = (j 1).val) :
    k1_pay1 x0 x1 x2 j
      = Cert.Spec.leakyP (F := Ideal) (Cert.Spec.leakyP (F := Ideal) (Cert.Spec.affineP (F := Ideal) A S B)) i := by
  obtain ⟨a, k, rfl⟩ : ∃ (a : Fin 2000) (k : Fin 128), j = ix2 a k := ⟨j 0, j 1, eq_ix2 j⟩
  have hrow : q * 2000 + a.val < 100000 := by omega
  have hi : i = ix2 (⟨q * 2000 + a.val, hrow⟩ : Fin 100000) k := by
    rw [eq_ix2 i]
    exact congrArg₂ ix2 (Fin.ext hi0) (Fin.ext hi1)
  rw [hi]
  unfold k1_pay1
  refine (Cert.LeakyLaw.rect_named_apply _ _).trans ?_
  rw [leakyP_apply, leakyP_apply, Cert.LeakyLaw.rect_rect _ Cert.LeakyLaw.slope_pos]
  unfold Cert.Spec.affineP
  exact congrArg _ (Cert.LibRowEpilogues.scaleBias_block (M := 100000) (m := 2000) (N := 128) (by decide) A S B x0 x1 x2
    (fun a => (⟨q * 2000 + a.val, by omega⟩ : Fin 100000)) h0 h1 h2 _ _ _ _ _ _ _ a k)

/-- The index maps over the grid: the row-tiled windows sit at block (t, 0), the bias row at block (0, 0). -/
theorem idxMaps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-table formula. -/
theorem flushed1_eq (t : Fin cfg1.N) :
    (dat1 (F := Ideal) V c).flushed 3 t
      = ((cfg1.win 3).blk t).view.read (Elt Ideal) (Cert.Spec.leakyP (F := Ideal) (Cert.Spec.leakyP (F := Ideal)
          (Cert.Spec.affineP (F := Ideal) (V c main_v34) (V c main_v35) (V c main_v36)))) := by
  show (cfg1.win 3).cut (grid1.coords t) ((dat1 (F := Ideal) V c).after 3 t) = _
  rw [after1_3]
  unfold out1_3
  rw [View.canon_unit_zero zeroOff1]
  simp only [View.ld_unit_zero (S := S2000x128) zeroOff1, View.ld_unit_zero (S := S2000x1) zeroOff1,
    View.ld_unit_zero (S := S1x128) zeroOff1]
  obtain ⟨e00, e01, e10, e11, e20, e21, e30, e31⟩ := idxMaps1 t
  have hN : cfg1.N = 50 := N_1
  have ht : t.val < 50 := hN ▸ t.isLt
  funext j
  rw [View.read_apply]
  refine affineLeaky2_block (V c main_v34) (V c main_v35) (V c main_v36) (iblk1 V c 0 t) (iblk1 V c 1 t) (iblk1 V c 2 t)
    t.val ht (fun a k => ?_) (fun a => ?_) (fun k => ?_) j _ ?_ ?_
  · unfold iblk1
    rw [View.read_apply]
    show V c main_v34 _ = V c main_v34 _
    congr 1
    funext d
    apply Fin.ext
    match d with
    | ⟨0, _⟩ => show win1_0.index t (0 : Fin 2) * 2000 + 1 * a.val = t.val * 2000 + a.val; rw [e00]; omega
    | ⟨1, _⟩ => show win1_0.index t (1 : Fin 2) * 128 + 1 * k.val = k.val; rw [e01]; omega
  · unfold iblk1
    rw [View.read_apply]
    show V c main_v35 _ = V c main_v35 _
    congr 1
    funext d
    apply Fin.ext
    match d with
    | ⟨0, _⟩ => show win1_1.index t (0 : Fin 2) * 2000 + 1 * a.val = t.val * 2000 + a.val; rw [e10]; omega
    | ⟨1, _⟩ => show win1_1.index t (1 : Fin 2) * 1 + 1 * 0 = 0; rw [e11]
  · unfold iblk1
    rw [View.read_apply]
    show V c main_v36 _ = V c main_v36 _
    congr 1
    funext d
    apply Fin.ext
    match d with
    | ⟨0, _⟩ => show win1_2.index t (0 : Fin 2) * 1 + 1 * 0 = 0; rw [e20]
    | ⟨1, _⟩ => show win1_2.index t (1 : Fin 2) * 128 + 1 * k.val = k.val; rw [e21]; omega
  · show win1_3.index t (0 : Fin 2) * 2000 + 1 * (j 0).val = t.val * 2000 + (j 0).val
    rw [e30]; omega
  · show win1_3.index t (1 : Fin 2) * 128 + 1 * (j 1).val = (j 1).val
    rw [e31]; omega

/-- An index of the table is in point t's block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v37).slice (win1_3.rect t)).set ↔ _
  rw [View.set_slice_whole, Rect.mem_set_unit]
  exact Iff.rfl

/-- Row r of the table is in the block of point r / 2000. -/
theorem cover1 (i : S100000x128.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 128 := (i 1).isLt
  let t : Fin cfg1.N := ⟨(i 0).val / 2000, by rw [hN]; omega⟩
  have htv : t.val = (i 0).val / 2000 := rfl
  obtain ⟨-, -, -, -, -, -, e30, e31⟩ := idxMaps1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000
              rw [e30, htv]; omega
  | ⟨1, _⟩ => show win1_3.index t (1 : Fin 2) * 128 ≤ (i 1).val ∧ (i 1).val < win1_3.index t (1 : Fin 2) * 128 + 128
              rw [e31]; omega

/-- The table after the region: the affine epilogue of the entry contents, rectified twice. -/
theorem arr1_3 : (dat1 (F := Ideal) V c).arrAt 3 cfg1.N = Cert.Spec.leakyP (F := Ideal) (Cert.Spec.leakyP (F := Ideal) (Cert.Spec.affineP (F := Ideal) (V c main_v34) (V c main_v35) (V c main_v36))) :=
  (dat1 (F := Ideal) V c).arrAt_eq_of_cover 3 _ (fun t _ => flushed1_eq V c t) cover1

end Cert.KernelIdeal.Regions

end
-- ==== Proof.ChainPaper.lean ====
/-
  The paper result of the kernel program as the reference's paper result.

  After the first region: the cites relation gathers the projected rows at the (wrapped) source indices and adds them
  up at the target indices, exactly the reference's gather and scatter-add; the second region scales by the target-side
  factor, adds the bias and rectifies, which on whole tables is the reference's affine stage rectified twice. The
  result then stays untouched through the rest of the program.
-/
import proofs.«117665_j24180665876677_2_alg».proof.Proof.Gen.KernelIdeal.Frame
import proofs.«117665_j24180665876677_2_alg».proof.Proof.Gen.ReferenceIdeal.Read
import proofs.«117665_j24180665876677_2_alg».proof.Proof.Spec
import proofs.«117665_j24180665876677_2_alg».proof.Proof.LibCastBroadcast
import proofs.«117665_j24180665876677_2_alg».proof.Proof.ChainEntry
import proofs.«117665_j24180665876677_2_alg».proof.Proof.Region1

set_option maxRecDepth 16384
set_option maxHeartbeats 4000000

noncomputable section

namespace Cert.KernelIdeal.Chain

open Cert.KernelIdeal Cert.KernelIdeal.Gen Idealize.ShloMosaic Idealize.ShloMosaic.TcCoe Idealize.SL.Sem
open Idealize.ShloMosaic.StableHlo Cert.ReferenceIdeal.Read

variable (m : (ℓ : Loc nD τ sig) → Buf (Elt Ideal) ℓ) (ρ : Dev nD → PrngReg) (c : Dev nD)

/-! ## The paper side: the second region's operands, its result, and the result carried to the end -/

theorem v34_11 : W11 (F := Ideal) m ρ c (Proc.devRef .tc main_v34) = val_main_v23 (F := Ideal) (m ((c : Thread nD τ).loc main_arg0)) (m ((c : Thread nD τ).loc main_arg2)) (m ((c : Thread nD τ).loc main_arg9)) (m ((c : Thread nD τ).loc main_arg10)) := by
  host1
  rw [a10_10, a10_9, v24_0_10]
  rfl

theorem v35_11 : W11 (F := Ideal) m ρ c (Proc.devRef .tc main_v35) = val_main_v25 (F := Ideal) (m ((c : Thread nD τ).loc main_arg10)) := by
  refine Eq.trans (b := shapeCast S100000x1 (val_main_v24 (F := Ideal) (m ((c : Thread nD τ).loc main_arg10))) shapeCasts_S100000_S100000x1) ?_ ?_
  · host1; rw [v10_10]; rfl
  · exact Cert.LibCastBroadcast.colCast_eq (by decide) _ _ _

theorem v36_11 : W11 (F := Ideal) m ρ c (Proc.devRef .tc main_v36) = val_main_v28 (F := Ideal) (m ((c : Thread nD τ).loc main_arg3)) := by
  refine Eq.trans (b := shapeCast S1x128 (m ((c : Thread nD τ).loc main_arg3)) shapeCasts_S128_S1x128) ?_ ?_
  · host1; rw [a10_3]; rfl
  · exact Cert.LibCastBroadcast.rowCast_eq _ _ _

theorem v37_12 : W12 (F := Ideal) m ρ c (Proc.devRef .tc main_v37) = val_main_v110 (F := Ideal) (m ((c : Thread nD τ).loc main_arg0)) (m ((c : Thread nD τ).loc main_arg2)) (m ((c : Thread nD τ).loc main_arg3)) (m ((c : Thread nD τ).loc main_arg9)) (m ((c : Thread nD τ).loc main_arg10)) := by
  refine (W12_arr m ρ c 3).trans ?_
  rw [Cert.KernelIdeal.Regions.arr1_3]
  show Cert.Spec.leakyP (F := Ideal) (Cert.Spec.leakyP (F := Ideal) (Cert.Spec.affineP (F := Ideal) (W11 (F := Ideal) m ρ c (Proc.devRef .tc main_v34)) (W11 (F := Ideal) m ρ c (Proc.devRef .tc main_v35)) (W11 (F := Ideal) m ρ c (Proc.devRef .tc main_v36)))) = _
  rw [v34_11, v35_11, v36_11]
  rfl

theorem v37_20 : W20 (F := Ideal) m ρ c (Proc.devRef .tc main_v37) = val_main_v110 (F := Ideal) (m ((c : Thread nD τ).loc main_arg0)) (m ((c : Thread nD τ).loc main_arg2)) (m ((c : Thread nD τ).loc main_arg3)) (m ((c : Thread nD τ).loc main_arg9)) (m ((c : Thread nD τ).loc main_arg10)) := by
  rw [W20_of_ne m ρ c main_v37 (by decide)]
  host4
  rw [W18_of_ne m ρ c main_v37 (by decide)]
  host3
  rw [W14_of_ne m ρ c main_v37 (by decide)]
  host2
  exact v37_12 m ρ c

end Cert.KernelIdeal.Chain

end
-- ==== Proof.LibAffineLeaky.lean ====
/-
  An affine epilogue and a leaky rectifier read block by block, at the extended reals.

  A row-tiled kernel sees m rows of an M-row table at a time: block row a stands for table row `row a`.

  • The affine epilogue  y(r, q) = A(r, q) · s(r) + β(q), the factor a column [M, 1] repeated along the columns, the
    bias a row [1, N] repeated down the rows: the block's value at (a, b) is the whole formula at (row a, b).
  • The leaky rectifier  y ↦ y where y ≥ 0, slope · y elsewhere: it acts entry by entry, so wherever an entry of one
    array equals an entry of another, so do the rectified entries, provided both sides compare against the same zero
    word and multiply by the same slope word. Generic in the two shapes and in the slope word.

  Nothing of real arithmetic is used (the same products, sums and comparison on both sides), so every statement holds
  at the infinities too. Generic in all extents (M must not be the unit extent, so that the column's row coordinate is
  read and not collapsed).
-/
import Idealize.ShloMosaic.Lib.KernelVsHost
import Idealize.ShloMosaic.Lib.ValueLayout
import proofs.«117665_j24180665876677_2_alg».proof.Proof.LibUnitAxes
import proofs.«117665_j24180665876677_2_alg».proof.Proof.LibHostReads

noncomputable section

namespace Cert.LibAffineLeaky

open Idealize.ShloMosaic Idealize.ShloMosaic.ValueIdx

/-- A table scaled per row with a bias row added: the block's value at (a, b) is the whole formula at (row a, b). -/
theorem scaleBias_block {M m N : Nat} (hM : M ≠ 1)
    (A : FVec Ideal ⟨2, ![M, N]⟩ .f32) (S : FVec Ideal ⟨2, ![M, 1]⟩ .f32) (B : FVec Ideal ⟨2, ![1, N]⟩ .f32)
    (x0 : FVec Ideal ⟨2, ![m, N]⟩ .f32) (x1 : FVec Ideal ⟨2, ![m, 1]⟩ .f32) (x2 : FVec Ideal ⟨2, ![1, N]⟩ .f32)
    (row : Fin m → Fin M)
    (h0 : ∀ a c, x0 (ix2 a c) = A (ix2 (row a) c))
    (h1 : ∀ a, x1 (ix2 a (0 : Fin 1)) = S (ix2 (row a) (0 : Fin 1)))
    (h2 : ∀ c, x2 (ix2 (0 : Fin 1) c) = B (ix2 (0 : Fin 1) c))
    (hc0 : (⟨2, ![m, N]⟩ : Shape).ShapeCasts ⟨2, ![m, N]⟩) (hc1 : (⟨2, ![m, 1]⟩ : Shape).ShapeCasts ⟨2, ![m, 1]⟩)
    (hc2 : (⟨2, ![1, N]⟩ : Shape).ShapeCasts ⟨2, ![1, N]⟩)
    (hb1 : (⟨2, ![m, 1]⟩ : Shape).Broadcasts ⟨2, ![m, N]⟩) (hb2 : (⟨2, ![1, N]⟩ : Shape).Broadcasts ⟨2, ![m, N]⟩)
    (hS : (⟨2, ![M, 1]⟩ : Shape).BroadcastsInDim ⟨2, ![M, N]⟩ ![0, 1])
    (hB : (⟨2, ![1, N]⟩ : Shape).BroadcastsInDim ⟨2, ![M, N]⟩ ![0, 1])
    (j : (⟨2, ![m, N]⟩ : Shape).Idx) (i : (⟨2, ![M, N]⟩ : Shape).Idx)
    (hi0 : (i 0).val = (row (j 0)).val) (hi1 : (i 1).val = (j 1).val) :
    addf (mulf (shapeCast ⟨2, ![m, N]⟩ x0 hc0) (broadcastTo ⟨2, ![m, N]⟩ (shapeCast ⟨2, ![m, 1]⟩ x1 hc1) hb1))
        (broadcastTo ⟨2, ![m, N]⟩ (shapeCast ⟨2, ![1, N]⟩ x2 hc2) hb2) j
      = addf (mulf A (broadcastInDim ⟨2, ![M, N]⟩ ![0, 1] hS S)) (broadcastInDim ⟨2, ![M, N]⟩ ![0, 1] hB B) i := by
  obtain ⟨a, b, rfl⟩ : ∃ (a : Fin m) (b : Fin N), j = ix2 a b := ⟨j 0, j 1, eq_ix2 j⟩
  obtain rfl : i = ix2 (row a) b := by
    rw [eq_ix2 i]
    exact congrArg₂ ix2 (Fin.ext hi0) (Fin.ext hi1)
  rw [addf_apply, addf_apply, mulf_apply, mulf_apply, shapeCast_self, shapeCast_self, shapeCast_self,
    LibUnitAxes.broadcastTo_a1_ab_apply, broadcastTo_1b_ab_apply, h0, h1, h2, LibHostReads.colBcast_apply hM,
    broadcastInDim_oneRow_apply]

/-- The leaky rectifier with slope word `w`, a kernel's spelling (scalar splats) against a host's (broadcasts of
    scalar constants): equal entries go to equal entries. -/
theorem leaky_apply {s t : Shape} (w : BitVec 32) (hZ : (⟨0, ![]⟩ : Shape).BroadcastsInDim t ![])
    (y : FVec Ideal s .f32) (Y : FVec Ideal t .f32) (j : s.Idx) (i : t.Idx) (h : y j = Y i) :
    select (cmpf .oge y (broadcast s (Scalar.ofBits (F := Ideal) .f32 0x00000000#32))) y
        (mulf (broadcast s (Scalar.ofBits (F := Ideal) .f32 w)) y) j
      = select (cmpf .oge Y (broadcastInDim t ![] hZ (constant (F := Ideal) ⟨0, ![]⟩ .f32 0x00000000#32))) Y
        (mulf (broadcastInDim t ![] hZ (constant (F := Ideal) ⟨0, ![]⟩ .f32 w)) Y) i := by
  rw [select_apply, select_apply, cmpf_apply, cmpf_apply, mulf_apply, mulf_apply, broadcast_apply, broadcast_apply,
    LibHostReads.splat_apply, LibHostReads.splat_apply, h]
  rfl

end Cert.LibAffineLeaky

end
-- ==== Proof.Region2.lean ====
/-
  The affine epilogue and the leaky rectifier of the snapshot table, block by block.

  The table has 10000 rows and is visited 1000 rows at a time: point t of the grid holds rows 1000·t … 1000·t + 999 of
  the aggregate and of the per-row factor (a column), and the whole bias row. The epilogue y(r, q) = A(r, q) · s(r) + β(q)
  and the rectifier act row by row and entry by entry, and the kernel compares against the same zero word and multiplies
  by the same slope word as the host formula. Hence what each point writes back is its block of the whole formula, and
  the ten blocks tile the table.
-/
import proofs.«117665_j24180665876677_2_alg».proof.Proof.Gen.KernelIdeal.Frame
import proofs.«117665_j24180665876677_2_alg».proof.Proof.Spec
import proofs.«117665_j24180665876677_2_alg».proof.Proof.LibAffineLeaky
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The zero offset of a whole-block access. -/
theorem zeroOff2 : (![0, 0] : Fin 2 → Nat) = fun _ => 0 := funext fun a => by fin_cases a <;> rfl

/-- Block q of the rectified epilogue: if the block operands hold rows 1000·q … of the aggregate and of the factor
    column, and the bias operand is the bias row, the body's value at (a, b) is the whole formula at (1000·q + a, b). -/
theorem affineLeaky_block (A : FVec Ideal S10000x128 .f32) (S : FVec Ideal S10000x1 .f32) (B : FVec Ideal S1x128 .f32)
    (x0 : Vec Ideal S1000x128 .f32) (x1 : Vec Ideal S1000x1 .f32) (x2 : Vec Ideal S1x128 .f32) (q : Nat) (hq : q < 10)
    (h0 : ∀ (a : Fin 1000) (k : Fin 128), x0 (ix2 a k) = A (ix2 (⟨q * 1000 + a.val, by omega⟩ : Fin 10000) k))
    (h1 : ∀ (a : Fin 1000), x1 (ix2 a (0 : Fin 1)) = S (ix2 (⟨q * 1000 + a.val, by omega⟩ : Fin 10000) (0 : Fin 1)))
    (h2 : ∀ (k : Fin 128), x2 (ix2 (0 : Fin 1) k) = B (ix2 (0 : Fin 1) k))
    (j : S1000x128.Idx) (i : S10000x128.Idx)
    (hi0 : (i 0).val = q * 1000 + (j 0).val) (hi1 : (i 1).val = (j 1).val) :
    k2_pay1 x0 x1 x2 j
      = Cert.Spec.leakyS (F := Ideal) (Cert.Spec.affineS (F := Ideal) A S B) i := by
  unfold k2_pay1 Cert.Spec.leakyS Cert.Spec.affineS
  exact LibAffineLeaky.leaky_apply 0x3C23D70A#32 _ _ _ j i
    (LibAffineLeaky.scaleBias_block (M := 10000) (m := 1000) (N := 128) (by decide) A S B x0 x1 x2
      (fun a => (⟨q * 1000 + a.val, by omega⟩ : Fin 10000)) h0 h1 h2 _ _ _ _ _ _ _ j i hi0 hi1)

/-- The index maps over the grid: the row-tiled windows sit at block (t, 0), the bias row at block (0, 0). -/
theorem idxMaps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole formula. -/
theorem flushed2_eq (t : Fin cfg2.N) :
    (dat2 (F := Ideal) V c).flushed 3 t
      = ((cfg2.win 3).blk t).view.read (Elt Ideal)
          (Cert.Spec.leakyS (F := Ideal) (Cert.Spec.affineS (F := Ideal) (V c main_v47) (V c main_v48) (V c main_v49))) := by
  show (cfg2.win 3).cut (grid2.coords t) ((dat2 (F := Ideal) V c).after 3 t) = _
  rw [after2_3]
  unfold out2_3
  rw [View.canon_unit_zero zeroOff2]
  simp only [View.ld_unit_zero (S := S1000x128) zeroOff2, View.ld_unit_zero (S := S1000x1) zeroOff2,
    View.ld_unit_zero (S := S1x128) zeroOff2]
  obtain ⟨e00, e01, e10, e11, e20, e21, e30, e31⟩ := idxMaps2 t
  have hN : cfg2.N = 10 := N_2
  have ht : t.val < 10 := hN ▸ t.isLt
  funext j
  rw [View.read_apply]
  refine affineLeaky_block (V c main_v47) (V c main_v48) (V c main_v49) (iblk2 V c 0 t) (iblk2 V c 1 t) (iblk2 V c 2 t)
    t.val ht (fun a k => ?_) (fun a => ?_) (fun k => ?_) j _ ?_ ?_
  · unfold iblk2
    rw [View.read_apply]
    show V c main_v47 _ = V c main_v47 _
    congr 1
    funext d
    apply Fin.ext
    match d with
    | ⟨0, _⟩ => show win2_0.index t (0 : Fin 2) * 1000 + 1 * a.val = t.val * 1000 + a.val; rw [e00]; omega
    | ⟨1, _⟩ => show win2_0.index t (1 : Fin 2) * 128 + 1 * k.val = k.val; rw [e01]; omega
  · unfold iblk2
    rw [View.read_apply]
    show V c main_v48 _ = V c main_v48 _
    congr 1
    funext d
    apply Fin.ext
    match d with
    | ⟨0, _⟩ => show win2_1.index t (0 : Fin 2) * 1000 + 1 * a.val = t.val * 1000 + a.val; rw [e10]; omega
    | ⟨1, _⟩ => show win2_1.index t (1 : Fin 2) * 1 + 1 * 0 = 0; rw [e11]
  · unfold iblk2
    rw [View.read_apply]
    show V c main_v49 _ = V c main_v49 _
    congr 1
    funext d
    apply Fin.ext
    match d with
    | ⟨0, _⟩ => show win2_2.index t (0 : Fin 2) * 1 + 1 * 0 = 0; rw [e20]
    | ⟨1, _⟩ => show win2_2.index t (1 : Fin 2) * 128 + 1 * k.val = k.val; rw [e21]; omega
  · show win2_3.index t (0 : Fin 2) * 1000 + 1 * (j 0).val = t.val * 1000 + (j 0).val
    rw [e30]; omega
  · show win2_3.index t (1 : Fin 2) * 128 + 1 * (j 1).val = (j 1).val
    rw [e31]; omega

/-- An index of the table is in point t's block iff each coordinate is in the block's range on its axis. -/
theorem mem_blk2 (t : Fin cfg2.N) (i : S10000x128.Idx) :
    i ∈ ((cfg2.win 3).blk t).view.set ↔ ∀ a : Fin 2, win2_3.index t a * S1000x128.size a ≤ (i a).val
      ∧ (i a).val < win2_3.index t a * S1000x128.size a + S1000x128.size a := by
  show i ∈ ((View.whole main_v50).slice (win2_3.rect t)).set ↔ _
  rw [View.set_slice_whole, Rect.mem_set_unit]
  exact Iff.rfl

/-- Row r of the table is in the block of point r / 1000. -/
theorem cover2 (i : S10000x128.Idx) :
    ∃ t : Fin cfg2.N, (cfg2.win 3).flush t = true ∧ i ∈ ((cfg2.win 3).blk t).view.set := by
  have hN : cfg2.N = 10 := N_2
  have hi0 : (i 0).val < 10000 := (i 0).isLt
  have hi1 : (i 1).val < 128 := (i 1).isLt
  let t : Fin cfg2.N := ⟨(i 0).val / 1000, by rw [hN]; omega⟩
  have htv : t.val = (i 0).val / 1000 := rfl
  obtain ⟨-, -, -, -, -, -, e30, e31⟩ := idxMaps2 t
  refine ⟨t, flush2_3 t, ?_⟩
  rw [mem_blk2]
  intro a
  match a with
  | ⟨0, _⟩ => show win2_3.index t (0 : Fin 2) * 1000 ≤ (i 0).val ∧ (i 0).val < win2_3.index t (0 : Fin 2) * 1000 + 1000
              rw [e30, htv]; omega
  | ⟨1, _⟩ => show win2_3.index t (1 : Fin 2) * 128 ≤ (i 1).val ∧ (i 1).val < win2_3.index t (1 : Fin 2) * 128 + 128
              rw [e31]; omega

/-- The table after the region: the rectified epilogue of the entry contents. -/
theorem arr2_3 : (dat2 (F := Ideal) V c).arrAt 3 cfg2.N = Cert.Spec.leakyS (F := Ideal) (Cert.Spec.affineS (F := Ideal) (V c main_v47) (V c main_v48) (V c main_v49)) :=
  (dat2 (F := Ideal) V c).arrAt_eq_of_cover 3 _ (fun t _ => flushed2_eq V c t) cover2

end Cert.KernelIdeal.Regions

end
-- ==== Proof.Region3.lean ====
/-
  The plain projection of the snapshot table, block by block.

  The table has 10000 rows and is visited 1000 rows at a time: point t of the grid holds rows 1000·t … 1000·t + 999 of
  the table and the whole 128×128 matrix. Row r of a product X·W depends on row r of X alone, so the product of a block
  of rows with W is the same block of rows of X·W; a change of float format is the identity on extended reals. Hence
  what each point writes back is its block of the whole product, and the ten blocks tile the table.
-/
import proofs.«117665_j24180665876677_2_alg».proof.Proof.Gen.KernelIdeal.Frame
import proofs.«117665_j24180665876677_2_alg».proof.Proof.Spec
import proofs.«117665_j24180665876677_2_alg».proof.Proof.LibRowBlockDot
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The zero offset of a whole-block access. -/
theorem zeroOff3 : (![0, 0] : Fin 2 → Nat) = fun _ => 0 := funext fun a => by fin_cases a <;> rfl

/-- Block q of the product: if the block operand holds rows 1000·q … of X and the matrix operand is W, the body's
    product at (a, b) is the whole product at (1000·q + a, b). -/
theorem dotRows_block (X : FVec Ideal S10000x128 .f32) (W : FVec Ideal S128x128 .f32)
    (x0 : Vec Ideal S1000x128 .f32) (x1 : Vec Ideal S128x128 .f32) (q : Nat) (hq : q < 10)
    (h0 : ∀ (a : Fin 1000) (k : Fin 128), x0 (ix2 a k) = X (ix2 (⟨q * 1000 + a.val, by omega⟩ : Fin 10000) k))
    (h1 : ∀ (k : Fin 128) (b : Fin 128), x1 (ix2 k b) = W (ix2 k b))
    (j : S1000x128.Idx) (i : S10000x128.Idx)
    (hi0 : (i 0).val = q * 1000 + (j 0).val) (hi1 : (i 1).val = (j 1).val) :
    k3_pay1 x0 x1 j = Cert.Spec.dotS (F := Ideal) X W i := by
  unfold k3_pay1 Cert.Spec.dotS
  exact LibRowBlockDot.matmul_rowBlock_apply_idx (M := 10000) (m := 1000) (K := 128) (N := 128) none none X W _ _
    (fun a => (⟨q * 1000 + a.val, by omega⟩ : Fin 10000))
    (fun a k => by rw [truncf_apply, shapeCast_self, h0]) (fun k b => by rw [truncf_apply, h1]) j i hi0 hi1

/-- The index maps over the grid: the row-tiled windows sit at block (t, 0), the matrix at block (0, 0). -/
theorem idxMaps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product. -/
theorem flushed3_eq (t : Fin cfg3.N) :
    (dat3 (F := Ideal) V c).flushed 2 t
      = ((cfg3.win 2).blk t).view.read (Elt Ideal) (Cert.Spec.dotS (F := Ideal) (V c main_v50) (V c main_arg6)) := by
  show (cfg3.win 2).cut (grid3.coords t) ((dat3 (F := Ideal) V c).after 2 t) = _
  rw [after3_2]
  unfold out3_2
  rw [View.canon_unit_zero zeroOff3]
  simp only [View.ld_unit_zero (S := S1000x128) zeroOff3, View.ld_unit_zero (S := S128x128) zeroOff3]
  obtain ⟨e00, e01, e10, e11, e20, e21⟩ := idxMaps3 t
  have hN : cfg3.N = 10 := N_3
  have ht : t.val < 10 := hN ▸ t.isLt
  funext j
  rw [View.read_apply]
  refine dotRows_block (V c main_v50) (V c main_arg6) (iblk3 V c 0 t) (iblk3 V c 1 t) t.val ht (fun a k => ?_) (fun k b => ?_) j _ ?_ ?_
  · unfold iblk3
    rw [View.read_apply]
    show V c main_v50 _ = V c main_v50 _
    congr 1
    funext d
    apply Fin.ext
    match d with
    | ⟨0, _⟩ => show win3_0.index t (0 : Fin 2) * 1000 + 1 * a.val = t.val * 1000 + a.val; rw [e00]; omega
    | ⟨1, _⟩ => show win3_0.index t (1 : Fin 2) * 128 + 1 * k.val = k.val; rw [e01]; omega
  · unfold iblk3
    rw [View.read_apply]
    show V c main_arg6 _ = V c main_arg6 _
    congr 1
    funext d
    apply Fin.ext
    match d with
    | ⟨0, _⟩ => show win3_1.index t (0 : Fin 2) * 128 + 1 * k.val = k.val; rw [e10]; omega
    | ⟨1, _⟩ => show win3_1.index t (1 : Fin 2) * 128 + 1 * b.val = b.val; rw [e11]; omega
  · show win3_2.index t (0 : Fin 2) * 1000 + 1 * (j 0).val = t.val * 1000 + (j 0).val
    rw [e20]; omega
  · show win3_2.index t (1 : Fin 2) * 128 + 1 * (j 1).val = (j 1).val
    rw [e21]; omega

/-- An index of the table is in point t's block iff each coordinate is in the block's range on its axis. -/
theorem mem_blk3 (t : Fin cfg3.N) (i : S10000x128.Idx) :
    i ∈ ((cfg3.win 2).blk t).view.set ↔ ∀ a : Fin 2, win3_2.index t a * S1000x128.size a ≤ (i a).val
      ∧ (i a).val < win3_2.index t a * S1000x128.size a + S1000x128.size a := by
  show i ∈ ((View.whole main_v63).slice (win3_2.rect t)).set ↔ _
  rw [View.set_slice_whole, Rect.mem_set_unit]
  exact Iff.rfl

/-- Row r of the table is in the block of point r / 1000. -/
theorem cover3 (i : S10000x128.Idx) :
    ∃ t : Fin cfg3.N, (cfg3.win 2).flush t = true ∧ i ∈ ((cfg3.win 2).blk t).view.set := by
  have hN : cfg3.N = 10 := N_3
  have hi0 : (i 0).val < 10000 := (i 0).isLt
  have hi1 : (i 1).val < 128 := (i 1).isLt
  let t : Fin cfg3.N := ⟨(i 0).val / 1000, by rw [hN]; omega⟩
  have htv : t.val = (i 0).val / 1000 := rfl
  obtain ⟨-, -, -, -, e20, e21⟩ := idxMaps3 t
  refine ⟨t, flush3_2 t, ?_⟩
  rw [mem_blk3]
  intro a
  match a with
  | ⟨0, _⟩ => show win3_2.index t (0 : Fin 2) * 1000 ≤ (i 0).val ∧ (i 0).val < win3_2.index t (0 : Fin 2) * 1000 + 1000
              rw [e20, htv]; omega
  | ⟨1, _⟩ => show win3_2.index t (1 : Fin 2) * 128 ≤ (i 1).val ∧ (i 1).val < win3_2.index t (1 : Fin 2) * 128 + 128
              rw [e21]; omega

/-- The table after the region: the whole product of the entry contents. -/
theorem arr3_2 : (dat3 (F := Ideal) V c).arrAt 2 cfg3.N = Cert.Spec.dotS (F := Ideal) (V c main_v50) (V c main_arg6) :=
  (dat3 (F := Ideal) V c).arrAt_eq_of_cover 2 _ (fun t _ => flushed3_eq V c t) cover3

end Cert.KernelIdeal.Regions

end
-- ==== Proof.Region4.lean ====
/-
  The bias epilogue of the snapshot table followed by the rectifier applied twice, block by block.

  The table has 10000 rows and is visited 1000 rows at a time: point t of the grid holds rows 1000·t … 1000·t + 999 of
  the raw table and the whole bias row. Entry (r, q) of the result depends on row r of the raw table alone:
  y = raw(r, q) + b(q), then the leaky rectifier twice. The body rectifies ONCE, with the slope named "neg_slope_sq",
  which is the exact square of the rectifier's slope; two rectifiers with a positive slope are one rectifier with the
  squared slope at every extended real, so what each point writes back is its block of the whole-table formula, and
  the ten blocks tile the table.
-/
import proofs.«117665_j24180665876677_2_alg».proof.Proof.Gen.KernelIdeal.Frame
import proofs.«117665_j24180665876677_2_alg».proof.Proof.Spec
import proofs.«117665_j24180665876677_2_alg».proof.Proof.LeakyLaw
import proofs.«117665_j24180665876677_2_alg».proof.Proof.LibRowEpilogues
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The zero offset of a whole-block access. -/
theorem zeroOff4 : (![0, 0] : Fin 2 → Nat) = fun _ => 0 := funext fun a => by fin_cases a <;> rfl

/-- The snapshot table's rectifier at an entry: the rectifier with the slope 5368709 / 2^29 of the entry. -/
theorem leakyS4_apply (Y : FVec Ideal S10000x128 .f32) (i : S10000x128.Idx) :
    Cert.Spec.leakyS (F := Ideal) Y i = Cert.LeakyLaw.rect ((Cert.LeakyLaw.slope : ℝ) : EReal) (Y i) :=
  Cert.LeakyLaw.rect_splat_apply _ Y i

/-- Block q of the result: if the block operand holds rows 1000·q … of the raw table and the row operand is the bias
    row, the body's value at (a, k) is the whole-table formula at (1000·q + a, k). -/
theorem biasLeaky4_block (A : FVec Ideal S10000x128 .f32) (B : FVec Ideal S1x128 .f32)
    (x0 : Vec Ideal S1000x128 .f32) (x2 : Vec Ideal S1x128 .f32) (q : Nat) (hq : q < 10)
    (h0 : ∀ (a : Fin 1000) (k : Fin 128), x0 (ix2 a k) = A (ix2 (⟨q * 1000 + a.val, by omega⟩ : Fin 10000) k))
    (h2 : ∀ k : Fin 128, x2 (ix2 (0 : Fin 1) k) = B (ix2 (0 : Fin 1) k))
    (j : S1000x128.Idx) (i : S10000x128.Idx)
    (hi0 : (i 0).val = q * 1000 + (j 0).val) (hi1 : (i 1).val = (j 1).val) :
    k4_pay1 x0 x2 j
      = Cert.Spec.leakyS (F := Ideal) (Cert.Spec.leakyS (F := Ideal) (Cert.Spec.biasS (F := Ideal) A B)) i := by
  obtain ⟨a, k, rfl⟩ : ∃ (a : Fin 1000) (k : Fin 128), j = ix2 a k := ⟨j 0, j 1, eq_ix2 j⟩
  have hrow : q * 1000 + a.val < 10000 := by omega
  have hi : i = ix2 (⟨q * 1000 + a.val, hrow⟩ : Fin 10000) k := by
    rw [eq_ix2 i]
    exact congrArg₂ ix2 (Fin.ext hi0) (Fin.ext hi1)
  rw [hi]
  unfold k4_pay1
  refine (Cert.LeakyLaw.rect_named_apply _ _).trans ?_
  rw [leakyS4_apply, leakyS4_apply, Cert.LeakyLaw.rect_rect _ Cert.LeakyLaw.slope_pos]
  unfold Cert.Spec.biasS
  exact congrArg _ (Cert.LibRowEpilogues.bias_block (M := 10000) (m := 1000) (N := 128) A B x0 x2
    (fun a => (⟨q * 1000 + a.val, by omega⟩ : Fin 10000)) h0 h2 _ _ _ _ a k)

/-- The index maps over the grid: the row-tiled windows sit at block (t, 0), the bias row at block (0, 0). -/
theorem idxMaps4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole-table formula. -/
theorem flushed4_eq (t : Fin cfg4.N) :
    (dat4 (F := Ideal) V c).flushed 2 t
      = ((cfg4.win 2).blk t).view.read (Elt Ideal) (Cert.Spec.leakyS (F := Ideal) (Cert.Spec.leakyS (F := Ideal)
          (Cert.Spec.biasS (F := Ideal) (V c main_v76) (V c main_v77)))) := by
  show (cfg4.win 2).cut (grid4.coords t) ((dat4 (F := Ideal) V c).after 2 t) = _
  rw [after4_2]
  unfold out4_2
  rw [View.canon_unit_zero zeroOff4]
  simp only [View.ld_unit_zero (S := S1000x128) zeroOff4, View.ld_unit_zero (S := S1x128) zeroOff4]
  obtain ⟨e00, e01, e10, e11, e20, e21⟩ := idxMaps4 t
  have hN : cfg4.N = 10 := N_4
  have ht : t.val < 10 := hN ▸ t.isLt
  funext j
  rw [View.read_apply]
  refine biasLeaky4_block (V c main_v76) (V c main_v77) (iblk4 V c 0 t) (iblk4 V c 1 t)
    t.val ht (fun a k => ?_) (fun k => ?_) j _ ?_ ?_
  · unfold iblk4
    rw [View.read_apply]
    show V c main_v76 _ = V c main_v76 _
    congr 1
    funext d
    apply Fin.ext
    match d with
    | ⟨0, _⟩ => show win4_0.index t (0 : Fin 2) * 1000 + 1 * a.val = t.val * 1000 + a.val; rw [e00]; omega
    | ⟨1, _⟩ => show win4_0.index t (1 : Fin 2) * 128 + 1 * k.val = k.val; rw [e01]; omega
  · unfold iblk4
    rw [View.read_apply]
    show V c main_v77 _ = V c main_v77 _
    congr 1
    funext d
    apply Fin.ext
    match d with
    | ⟨0, _⟩ => show win4_1.index t (0 : Fin 2) * 1 + 1 * 0 = 0; rw [e10]
    | ⟨1, _⟩ => show win4_1.index t (1 : Fin 2) * 128 + 1 * k.val = k.val; rw [e11]; omega
  · show win4_2.index t (0 : Fin 2) * 1000 + 1 * (j 0).val = t.val * 1000 + (j 0).val
    rw [e20]; omega
  · show win4_2.index t (1 : Fin 2) * 128 + 1 * (j 1).val = (j 1).val
    rw [e21]; omega

/-- An index of the table is in point t's block iff each coordinate is in the block's range on its axis. -/
theorem mem_blk4 (t : Fin cfg4.N) (i : S10000x128.Idx) :
    i ∈ ((cfg4.win 2).blk t).view.set ↔ ∀ a : Fin 2, win4_2.index t a * S1000x128.size a ≤ (i a).val
      ∧ (i a).val < win4_2.index t a * S1000x128.size a + S1000x128.size a := by
  show i ∈ ((View.whole main_v78).slice (win4_2.rect t)).set ↔ _
  rw [View.set_slice_whole, Rect.mem_set_unit]
  exact Iff.rfl

/-- Row r of the table is in the block of point r / 1000. -/
theorem cover4 (i : S10000x128.Idx) :
    ∃ t : Fin cfg4.N, (cfg4.win 2).flush t = true ∧ i ∈ ((cfg4.win 2).blk t).view.set := by
  have hN : cfg4.N = 10 := N_4
  have hi0 : (i 0).val < 10000 := (i 0).isLt
  have hi1 : (i 1).val < 128 := (i 1).isLt
  let t : Fin cfg4.N := ⟨(i 0).val / 1000, by rw [hN]; omega⟩
  have htv : t.val = (i 0).val / 1000 := rfl
  obtain ⟨-, -, -, -, e20, e21⟩ := idxMaps4 t
  refine ⟨t, flush4_2 t, ?_⟩
  rw [mem_blk4]
  intro a
  match a with
  | ⟨0, _⟩ => show win4_2.index t (0 : Fin 2) * 1000 ≤ (i 0).val ∧ (i 0).val < win4_2.index t (0 : Fin 2) * 1000 + 1000
              rw [e20, htv]; omega
  | ⟨1, _⟩ => show win4_2.index t (1 : Fin 2) * 128 ≤ (i 1).val ∧ (i 1).val < win4_2.index t (1 : Fin 2) * 128 + 128
              rw [e21]; omega

/-- The table after the region: the bias epilogue of the entry contents, rectified twice. -/
theorem arr4_2 : (dat4 (F := Ideal) V c).arrAt 2 cfg4.N = Cert.Spec.leakyS (F := Ideal) (Cert.Spec.leakyS (F := Ideal) (Cert.Spec.biasS (F := Ideal) (V c main_v76) (V c main_v77))) :=
  (dat4 (F := Ideal) V c).arrAt_eq_of_cover 2 _ (fun t _ => flushed4_eq V c t) cover4

end Cert.KernelIdeal.Regions

end
-- ==== Proof.ChainSnap.lean ====
/-
  The snapshot result of the kernel program as the reference's snapshot result.

  The isin relation goes the same road as cites into the third region (affine stage, rectified once: the updated
  snapshot table); the edge weights are normalised by their clipped per-target sums (host operations shared with the
  reference); the fourth region is the plain projection of the updated table; the snap relation gathers its rows,
  weighs them, adds them up at the targets, and the fifth region adds the bias and rectifies twice.
-/
import proofs.«117665_j24180665876677_2_alg».proof.Proof.Gen.KernelIdeal.Frame
import proofs.«117665_j24180665876677_2_alg».proof.Proof.Gen.ReferenceIdeal.Read
import proofs.«117665_j24180665876677_2_alg».proof.Proof.Spec
import proofs.«117665_j24180665876677_2_alg».proof.Proof.LibCastBroadcast
import proofs.«117665_j24180665876677_2_alg».proof.Proof.ChainEntry
import proofs.«117665_j24180665876677_2_alg».proof.Proof.Region2
import proofs.«117665_j24180665876677_2_alg».proof.Proof.Region3
import proofs.«117665_j24180665876677_2_alg».proof.Proof.Region4

set_option maxRecDepth 16384
set_option maxHeartbeats 4000000

noncomputable section

namespace Cert.KernelIdeal.Chain

open Cert.KernelIdeal Cert.KernelIdeal.Gen Idealize.ShloMosaic Idealize.ShloMosaic.TcCoe Idealize.SL.Sem
open Idealize.ShloMosaic.StableHlo Cert.ReferenceIdeal.Read

variable (m : (ℓ : Loc nD τ sig) → Buf (Elt Ideal) ℓ) (ρ : Dev nD → PrngReg) (c : Dev nD)

/-! ## The snapshot side -/

/-! ### Carried past the second region -/
theorem a12_5 : W12 (F := Ideal) m ρ c (Proc.devRef .tc main_arg5) = (m ((c : Thread nD τ).loc main_arg5)) := by
  rw [W12_of_ne m ρ c main_arg5 (by decide)]; host1; exact a10_5 m ρ c
theorem a12_6 : W12 (F := Ideal) m ρ c (Proc.devRef .tc main_arg6) = (m ((c : Thread nD τ).loc main_arg6)) := by
  rw [W12_of_ne m ρ c main_arg6 (by decide)]; host1; exact a10_6 m ρ c
theorem a12_7 : W12 (F := Ideal) m ρ c (Proc.devRef .tc main_arg7) = (m ((c : Thread nD τ).loc main_arg7)) := by
  rw [W12_of_ne m ρ c main_arg7 (by decide)]; host1; exact a10_7 m ρ c
theorem a12_8 : W12 (F := Ideal) m ρ c (Proc.devRef .tc main_arg8) = (m ((c : Thread nD τ).loc main_arg8)) := by
  rw [W12_of_ne m ρ c main_arg8 (by decide)]; host1; exact a10_8 m ρ c
theorem a12_11 : W12 (F := Ideal) m ρ c (Proc.devRef .tc main_arg11) = (m ((c : Thread nD τ).loc main_arg11)) := by
  rw [W12_of_ne m ρ c main_arg11 (by decide)]; host1; exact a10_11 m ρ c
theorem a12_12 : W12 (F := Ideal) m ρ c (Proc.devRef .tc main_arg12) = (m ((c : Thread nD τ).loc main_arg12)) := by
  rw [W12_of_ne m ρ c main_arg12 (by decide)]; host1; exact a10_12 m ρ c
theorem a12_13 : W12 (F := Ideal) m ρ c (Proc.devRef .tc main_arg13) = (m ((c : Thread nD τ).loc main_arg13)) := by
  rw [W12_of_ne m ρ c main_arg13 (by decide)]; host1; exact a10_13 m ρ c
theorem a12_14 : W12 (F := Ideal) m ρ c (Proc.devRef .tc main_arg14) = (m ((c : Thread nD τ).loc main_arg14)) := by
  rw [W12_of_ne m ρ c main_arg14 (by decide)]; host1; exact a10_14 m ρ c
theorem v24_1_12 : W12 (F := Ideal) m ρ c (Proc.devRef .tc main_v24_1) = val_main_v49 (F := Ideal) (m ((c : Thread nD τ).loc main_arg0)) (m ((c : Thread nD τ).loc main_arg4)) (m ((c : Thread nD τ).loc main_arg11)) := by
  rw [W12_of_ne m ρ c main_v24_1 (by decide)]; host1; exact v24_1_10 m ρ c
theorem v21_12 : W12 (F := Ideal) m ρ c (Proc.devRef .tc main_v21) = val_main_v60 (F := Ideal) (m ((c : Thread nD τ).loc main_arg12)) := by
  rw [W12_of_ne m ρ c main_v21 (by decide)]; host1; exact v21_10 m ρ c

/-! ### The third region's operands and result -/

theorem v47_13 : W13 (F := Ideal) m ρ c (Proc.devRef .tc main_v47) = val_main_v59 (F := Ideal) (m ((c : Thread nD τ).loc main_arg0)) (m ((c : Thread nD τ).loc main_arg4)) (m ((c : Thread nD τ).loc main_arg11)) (m ((c : Thread nD τ).loc main_arg12)) := by
  host2
  rw [a12_12, a12_11, v24_1_12]
  rfl

theorem v48_13 : W13 (F := Ideal) m ρ c (Proc.devRef .tc main_v48) = val_main_v61 (F := Ideal) (m ((c : Thread nD τ).loc main_arg12)) := by
  refine Eq.trans (b := shapeCast S10000x1 (val_main_v60 (F := Ideal) (m ((c : Thread nD τ).loc main_arg12))) shapeCasts_S10000_S10000x1) ?_ ?_
  · host2; rw [v21_12]; rfl
  · exact Cert.LibCastBroadcast.colCast_eq (by decide) _ _ _

theorem v49_13 : W13 (F := Ideal) m ρ c (Proc.devRef .tc main_v49) = val_main_v64 (F := Ideal) (m ((c : Thread nD τ).loc main_arg5)) := by
  refine Eq.trans (b := shapeCast S1x128 (m ((c : Thread nD τ).loc main_arg5)) shapeCasts_S128_S1x128) ?_ ?_
  · host2; rw [a12_5]; rfl
  · exact Cert.LibCastBroadcast.rowCast_eq _ _ _

theorem v50_14 : W14 (F := Ideal) m ρ c (Proc.devRef .tc main_v50) = val_main_v71 (F := Ideal) (m ((c : Thread nD τ).loc main_arg0)) (m ((c : Thread nD τ).loc main_arg4)) (m ((c : Thread nD τ).loc main_arg5)) (m ((c : Thread nD τ).loc main_arg11)) (m ((c : Thread nD τ).loc main_arg12)) := by
  refine (W14_arr m ρ c 3).trans ?_
  rw [Cert.KernelIdeal.Regions.arr2_3]
  show Cert.Spec.leakyS (F := Ideal) (Cert.Spec.affineS (F := Ideal) (W13 (F := Ideal) m ρ c (Proc.devRef .tc main_v47)) (W13 (F := Ideal) m ρ c (Proc.devRef .tc main_v48)) (W13 (F := Ideal) m ρ c (Proc.devRef .tc main_v49))) = _
  rw [v47_13, v48_13, v49_13]
  rfl

/-! ### Carried past the third region, and the edge weights normalised -/
theorem a14_6 : W14 (F := Ideal) m ρ c (Proc.devRef .tc main_arg6) = (m ((c : Thread nD τ).loc main_arg6)) := by
  rw [W14_of_ne m ρ c main_arg6 (by decide)]; host2; exact a12_6 m ρ c
theorem a14_7 : W14 (F := Ideal) m ρ c (Proc.devRef .tc main_arg7) = (m ((c : Thread nD τ).loc main_arg7)) := by
  rw [W14_of_ne m ρ c main_arg7 (by decide)]; host2; exact a12_7 m ρ c
theorem a14_8 : W14 (F := Ideal) m ρ c (Proc.devRef .tc main_arg8) = (m ((c : Thread nD τ).loc main_arg8)) := by
  rw [W14_of_ne m ρ c main_arg8 (by decide)]; host2; exact a12_8 m ρ c
theorem a14_13 : W14 (F := Ideal) m ρ c (Proc.devRef .tc main_arg13) = (m ((c : Thread nD τ).loc main_arg13)) := by
  rw [W14_of_ne m ρ c main_arg13 (by decide)]; host2; exact a12_13 m ρ c
theorem a14_14 : W14 (F := Ideal) m ρ c (Proc.devRef .tc main_arg14) = (m ((c : Thread nD τ).loc main_arg14)) := by
  rw [W14_of_ne m ρ c main_arg14 (by decide)]; host2; exact a12_14 m ρ c

theorem v62_17 : W17 (F := Ideal) m ρ c (Proc.devRef .tc main_v62) = val_main_v83 (F := Ideal) (m ((c : Thread nD τ).loc main_arg8)) (m ((c : Thread nD τ).loc main_arg14)) := by
  host3
  rw [a14_8, a14_14]
  rfl
theorem a17_6 : W17 (F := Ideal) m ρ c (Proc.devRef .tc main_arg6) = (m ((c : Thread nD τ).loc main_arg6)) := by
  host3; exact a14_6 m ρ c
theorem a17_7 : W17 (F := Ideal) m ρ c (Proc.devRef .tc main_arg7) = (m ((c : Thread nD τ).loc main_arg7)) := by
  host3; exact a14_7 m ρ c
theorem a17_13 : W17 (F := Ideal) m ρ c (Proc.devRef .tc main_arg13) = (m ((c : Thread nD τ).loc main_arg13)) := by
  host3; exact a14_13 m ρ c
theorem a17_14 : W17 (F := Ideal) m ρ c (Proc.devRef .tc main_arg14) = (m ((c : Thread nD τ).loc main_arg14)) := by
  host3; exact a14_14 m ρ c
theorem v50_17 : W17 (F := Ideal) m ρ c (Proc.devRef .tc main_v50) = val_main_v71 (F := Ideal) (m ((c : Thread nD τ).loc main_arg0)) (m ((c : Thread nD τ).loc main_arg4)) (m ((c : Thread nD τ).loc main_arg5)) (m ((c : Thread nD τ).loc main_arg11)) (m ((c : Thread nD τ).loc main_arg12)) := by
  host3; exact v50_14 m ρ c

/-! ### The fourth region -/

theorem v63_18 : W18 (F := Ideal) m ρ c (Proc.devRef .tc main_v63) = val_main_v84 (F := Ideal) (m ((c : Thread nD τ).loc main_arg0)) (m ((c : Thread nD τ).loc main_arg4)) (m ((c : Thread nD τ).loc main_arg5)) (m ((c : Thread nD τ).loc main_arg6)) (m ((c : Thread nD τ).loc main_arg11)) (m ((c : Thread nD τ).loc main_arg12)) := by
  refine (W18_arr m ρ c 2).trans ?_
  rw [Cert.KernelIdeal.Regions.arr3_2]
  show Cert.Spec.dotS (F := Ideal) (W17 (F := Ideal) m ρ c (Proc.devRef .tc main_v50)) (W17 (F := Ideal) m ρ c (Proc.devRef .tc main_arg6)) = _
  rw [v50_17, a17_6]
  rfl
theorem a18_7 : W18 (F := Ideal) m ρ c (Proc.devRef .tc main_arg7) = (m ((c : Thread nD τ).loc main_arg7)) :=
  (W18_of_ne m ρ c main_arg7 (by decide)).trans (a17_7 m ρ c)
theorem a18_13 : W18 (F := Ideal) m ρ c (Proc.devRef .tc main_arg13) = (m ((c : Thread nD τ).loc main_arg13)) :=
  (W18_of_ne m ρ c main_arg13 (by decide)).trans (a17_13 m ρ c)
theorem a18_14 : W18 (F := Ideal) m ρ c (Proc.devRef .tc main_arg14) = (m ((c : Thread nD τ).loc main_arg14)) :=
  (W18_of_ne m ρ c main_arg14 (by decide)).trans (a17_14 m ρ c)
theorem v62_18 : W18 (F := Ideal) m ρ c (Proc.devRef .tc main_v62) = val_main_v83 (F := Ideal) (m ((c : Thread nD τ).loc main_arg8)) (m ((c : Thread nD τ).loc main_arg14)) :=
  (W18_of_ne m ρ c main_v62 (by decide)).trans (v62_17 m ρ c)

/-! ### The fifth region's operands and result -/

theorem v76_19 : W19 (F := Ideal) m ρ c (Proc.devRef .tc main_v76) = val_main_v97 (F := Ideal) (m ((c : Thread nD τ).loc main_arg0)) (m ((c : Thread nD τ).loc main_arg4)) (m ((c : Thread nD τ).loc main_arg5)) (m ((c : Thread nD τ).loc main_arg6)) (m ((c : Thread nD τ).loc main_arg8)) (m ((c : Thread nD τ).loc main_arg11)) (m ((c : Thread nD τ).loc main_arg12)) (m ((c : Thread nD τ).loc main_arg13)) (m ((c : Thread nD τ).loc main_arg14)) := by
  host4
  rw [a18_14, a18_13, v63_18, v62_18]
  rfl

theorem v77_19 : W19 (F := Ideal) m ρ c (Proc.devRef .tc main_v77) = val_main_v98 (F := Ideal) (m ((c : Thread nD τ).loc main_arg7)) := by
  refine Eq.trans (b := shapeCast S1x128 (m ((c : Thread nD τ).loc main_arg7)) shapeCasts_S128_S1x128) ?_ ?_
  · host4; rw [a18_7]; rfl
  · exact Cert.LibCastBroadcast.rowCast_eq _ _ _

theorem v78_20 : W20 (F := Ideal) m ρ c (Proc.devRef .tc main_v78) = val_main_v115 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) := by
  refine (W20_arr m ρ c 2).trans ?_
  rw [Cert.KernelIdeal.Regions.arr4_2]
  show Cert.Spec.leakyS (F := Ideal) (Cert.Spec.leakyS (F := Ideal) (Cert.Spec.biasS (F := Ideal) (W19 (F := Ideal) m ρ c (Proc.devRef .tc main_v76)) (W19 (F := Ideal) m ρ c (Proc.devRef .tc main_v77)))) = _
  rw [v76_19, v77_19]
  rfl

end Cert.KernelIdeal.Chain

end
-- ==== Proof.lean ====
/-
  A two-relation graph layer with a weighted snapshot relation: a tiled kernel program against plain array code.

  Both programs compute, from a paper table x [100000, 128], three weight matrices, three bias vectors, edge lists
  (cites: paper → paper, isin: paper → snapshot, snap: snapshot → snapshot) and the snap edges' weights:

    paper result    = L(L( (Σ_{e into p} h_cites[src e]) · t_cites(p) + b_cites )),   h_cites = (x · s_cites) W_cites,
    snapshot table  = L( (Σ_{e into q} h_isin[src e]) · t_isin(q) + b_isin ),          h_isin  = (x · s_isin) W_isin,
    snapshot result = L(L( Σ_{e into q} (snapshot table · W_snap)[src e] · w_e / max(Σ_{e' into q} w_e', ε) + b_snap )),

  where s and t are the inverse square roots of the source and target degrees clipped below at one, and L is the leaky
  rectifier y ↦ y for y ≥ 0, D · y otherwise, D the 32-bit float nearest 0.01. The reference spells all of it as host
  operations. The kernel program keeps the degree counts, index wraps, gathers and scatter-adds as the same host
  operations and runs the dense stages as five row-tiled regions: the two scaled projections in one region, the two
  affine epilogues, the plain projection, and the bias epilogue. Where the reference rectifies twice the kernel
  rectifies once with the slope D · D folded into one constant; that constant is named, so that at the extended reals
  it denotes D · D exactly, and rectifying twice with a positive slope D is rectifying once with D · D at every
  extended real (a negative value stays negative under the first pass).

  The proof: each region's result array is one whole-table function of its operand arrays (modules Region0 … Region4,
  over the functions of Spec), the kernel program's buffers are then the reference's own stages one after the other
  (ChainEntry, ChainPaper, ChainSnap: the shared host operations are never opened, only applied to equal operands),
  and the two runs end at the same two tables. No finiteness of the inputs is used.
-/
import proofs.«117665_j24180665876677_2_alg».proof.Defs
import proofs.«117665_j24180665876677_2_alg».proof.Proof.Gen.Kernel
import proofs.«117665_j24180665876677_2_alg».proof.Proof.Gen.Kernel.Frame
import proofs.«117665_j24180665876677_2_alg».proof.Proof.Gen.KernelIdeal
import proofs.«117665_j24180665876677_2_alg».proof.Proof.Gen.KernelIdeal.Frame
import proofs.«117665_j24180665876677_2_alg».proof.Proof.Gen.ReferenceIdeal
import proofs.«117665_j24180665876677_2_alg».proof.Proof.Gen.ReferenceIdeal.Run
import proofs.«117665_j24180665876677_2_alg».proof.Proof.Gen.ReferenceIdeal.Read
import proofs.«117665_j24180665876677_2_alg».proof.Proof.Gen.Pre_finite_inputs
import proofs.«117665_j24180665876677_2_alg».proof.Proof.KernelRun
import proofs.«117665_j24180665876677_2_alg».proof.Proof.ChainPaper
import proofs.«117665_j24180665876677_2_alg».proof.Proof.ChainSnap
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The folded slope is named at both of its sites: at the extended reals the name denotes the exact square of the
    reference's slope. -/
theorem preserves : Cert.preserves_Kernel_KernelIdeal :=
  ⟨IdealRules.named_const.statement Cert.KernelIdeal.κ "neg_slope_sq" .f32 0x38D1B717#32
      ((28823036326681 / 288230376151711744 : ℝ) : EReal) rfl,
   IdealRules.named_const.statement Cert.KernelIdeal.κ "neg_slope_sq" .f32 0x38D1B717#32
      ((28823036326681 / 288230376151711744 : ℝ) : EReal) rfl⟩

open Cert.ReferenceIdeal.Read in
/-- From memories agreeing on the arguments both programs end with the reference's two result stages of those
    arguments. -/
theorem algebraic : Cert.algebraic_KernelIdeal_ReferenceIdeal := by
  intro m ρ m' ρ' _ hagree
  refine ⟨fun c => val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    ?_, ?_⟩
  · exact (θ_run Cert.KernelIdeal.defs _ _).mono
      (fun _ h c => ⟨(h c).1.trans (Cert.KernelIdeal.Chain.v37_20 m ρ c),
        (h c).2.1.trans (Cert.KernelIdeal.Chain.v78_20 m ρ c), (h c).2.2⟩)
      (Cert.KernelIdeal.RunValues.run_values (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14⟩ := hagree c
      rw [val_main_v110_eq, e0, e2, e3, e9, e10]
    · obtain ⟨e0, e1, e2, e3, e4, e5, e6, e7, e8, e9, e10, e11, e12, e13, e14⟩ := hagree c
      rw [val_main_v115_eq, e0, e4, e5, e6, e7, e8, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
